-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S_ : Shape := ⟨0, ![]⟩
abbrev S128x256 : Shape := ⟨2, ![128, 256]⟩
abbrev S256 : Shape := ⟨1, ![256]⟩
abbrev S256x256 : Shape := ⟨2, ![256, 256]⟩
abbrev S2x800000 : Shape := ⟨2, ![2, 800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  reducesTo_S_S_d : S_.ReducesTo [] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part5 {F : FTy → Type} [FloatOps F] (main_v82 : IVec S_ 1) (main_v83 : FVec F S256 .f32) (main_v84 : FVec F S256 .f32) : IVec S_ 1 :=
  let main_v85 : IVec S256 1 := cmpf .olt main_v83 main_v84
  let main_c_33 : IVec S_ 1 := constantI S_ 1 1#1
  let main_v86 : IVec S_ 1 := (fun x v => Host.reduce IntOp.andi x v reducesTo_S256_S_d0 h_S_) main_v85 main_c_33
  let main_v87 : IVec S_ 1 := andi main_v82 main_v86
  main_v87

def fn_part4 {F : FTy → Type} [FloatOps F] (main_arg14 : FVec F S256x256 .f32) (main_arg15 : FVec F S256 .f32) (main_arg16 : FVec F S256x256 .f32) (main_arg17 : FVec F S256 .f32) (main_v67 : IVec S_ 1) : IVec S_ 1 :=
  let main_v68 : FVec F S256x256 .f32 := Host.absf main_arg14
  let main_cst_26 : FVec F S_ .f32 := constant S_ .f32 0x7F800000#32
  let main_v69 : FVec F S256x256 .f32 := broadcastInDim S256x256 ![] bcast_S_S256x256 main_cst_26
  let main_v70 : IVec S256x256 1 := cmpf .olt main_v68 main_v69
  let main_c_27 : IVec S_ 1 := constantI S_ 1 1#1
  let main_v71 : IVec S_ 1 := (fun x v => Host.reduce IntOp.andi x v reducesTo_S256x256_S_d0_1 h_S_) main_v70 main_c_27
  let main_v72 : IVec S_ 1 := andi main_v67 main_v71
  let main_v73 : FVec F S256 .f32 := Host.absf main_arg15
  let main_cst_28 : FVec F S_ .f32 := constant S_ .f32 0x7F800000#32
  let main_v74 : FVec F S256 .f32 := broadcastInDim S256 ![] bcast_S_S256 main_cst_28
  let main_v75 : IVec S256 1 := cmpf .olt main_v73 main_v74
  let main_c_29 : IVec S_ 1 := constantI S_ 1 1#1
  let main_v76 : IVec S_ 1 := (fun x v => Host.reduce IntOp.andi x v reducesTo_S256_S_d0 h_S_) main_v75 main_c_29
  let main_v77 : IVec S_ 1 := andi main_v72 main_v76
  let main_v78 : FVec F S256x256 .f32 := Host.absf main_arg16
  let main_cst_30 : FVec F S_ .f32 := constant S_ .f32 0x7F800000#32
  let main_v79 : FVec F S256x256 .f32 := broadcastInDim S256x256 ![] bcast_S_S256x256 main_cst_30
  let main_v80 : IVec S256x256 1 := cmpf .olt main_v78 main_v79
  let main_c_31 : IVec S_ 1 := constantI S_ 1 1#1
  let main_v81 : IVec S_ 1 := (fun x v => Host.reduce IntOp.andi x v reducesTo_S256x256_S_d0_1 h_S_) main_v80 main_c_31
  let main_v82 : IVec S_ 1 := andi main_v77 main_v81
  let main_v83 : FVec F S256 .f32 := Host.absf main_arg17
  let main_cst_32 : FVec F S_ .f32 := constant S_ .f32 0x7F800000#32
  let main_v84 : FVec F S256 .f32 := broadcastInDim S256 ![] bcast_S_S256 main_cst_32
  fn_part5 (F := F) main_v82 main_v83 main_v84

def fn_part3 {F : FTy → Type} [FloatOps F] (main_arg11 : FVec F S256 .f32) (main_arg12 : FVec F S128x256 .f32) (main_arg13 : FVec F S256 .f32) (main_arg14 : FVec F S256x256 .f32) (main_arg15 : FVec F S256 .f32) (main_arg16 : FVec F S256x256 .f32) (main_arg17 : FVec F S256 .f32) (main_v47 : IVec S_ 1) (main_v50 : IVec S128x256 1) : IVec S_ 1 :=
  let main_c_19 : IVec S_ 1 := constantI S_ 1 1#1
  let main_v51 : IVec S_ 1 := (fun x v => Host.reduce IntOp.andi x v reducesTo_S128x256_S_d0_1 h_S_) main_v50 main_c_19
  let main_v52 : IVec S_ 1 := andi main_v47 main_v51
  let main_v53 : FVec F S256 .f32 := Host.absf main_arg11
  let main_cst_20 : FVec F S_ .f32 := constant S_ .f32 0x7F800000#32
  let main_v54 : FVec F S256 .f32 := broadcastInDim S256 ![] bcast_S_S256 main_cst_20
  let main_v55 : IVec S256 1 := cmpf .olt main_v53 main_v54
  let main_c_21 : IVec S_ 1 := constantI S_ 1 1#1
  let main_v56 : IVec S_ 1 := (fun x v => Host.reduce IntOp.andi x v reducesTo_S256_S_d0 h_S_) main_v55 main_c_21
  let main_v57 : IVec S_ 1 := andi main_v52 main_v56
  let main_v58 : FVec F S128x256 .f32 := Host.absf main_arg12
  let main_cst_22 : FVec F S_ .f32 := constant S_ .f32 0x7F800000#32
  let main_v59 : FVec F S128x256 .f32 := broadcastInDim S128x256 ![] bcast_S_S128x256 main_cst_22
  let main_v60 : IVec S128x256 1 := cmpf .olt main_v58 main_v59
  let main_c_23 : IVec S_ 1 := constantI S_ 1 1#1
  let main_v61 : IVec S_ 1 := (fun x v => Host.reduce IntOp.andi x v reducesTo_S128x256_S_d0_1 h_S_) main_v60 main_c_23
  let main_v62 : IVec S_ 1 := andi main_v57 main_v61
  let main_v63 : FVec F S256 .f32 := Host.absf main_arg13
  let main_cst_24 : FVec F S_ .f32 := constant S_ .f32 0x7F800000#32
  let main_v64 : FVec F S256 .f32 := broadcastInDim S256 ![] bcast_S_S256 main_cst_24
  let main_v65 : IVec S256 1 := cmpf .olt main_v63 main_v64
  let main_c_25 : IVec S_ 1 := constantI S_ 1 1#1
  let main_v66 : IVec S_ 1 := (fun x v => Host.reduce IntOp.andi x v reducesTo_S256_S_d0 h_S_) main_v65 main_c_25
  let main_v67 : IVec S_ 1 := andi main_v62 main_v66
  fn_part4 (F := F) main_arg14 main_arg15 main_arg16 main_arg17 main_v67

def fn_part2 {F : FTy → Type} [FloatOps F] (main_arg8 : FVec F S256x256 .f32) (main_arg9 : FVec F S256 .f32) (main_arg10 : FVec F S128x256 .f32) (main_arg11 : FVec F S256 .f32) (main_arg12 : FVec F S128x256 .f32) (main_arg13 : FVec F S256 .f32) (main_arg14 : FVec F S256x256 .f32) (main_arg15 : FVec F S256 .f32) (main_arg16 : FVec F S256x256 .f32) (main_arg17 : FVec F S256 .f32) (main_v32 : IVec S_ 1) (main_v33 : FVec F S256 .f32) : IVec S_ 1 :=
  let main_cst_12 : FVec F S_ .f32 := constant S_ .f32 0x7F800000#32
  let main_v34 : FVec F S256 .f32 := broadcastInDim S256 ![] bcast_S_S256 main_cst_12
  let main_v35 : IVec S256 1 := cmpf .olt main_v33 main_v34
  let main_c_13 : IVec S_ 1 := constantI S_ 1 1#1
  let main_v36 : IVec S_ 1 := (fun x v => Host.reduce IntOp.andi x v reducesTo_S256_S_d0 h_S_) main_v35 main_c_13
  let main_v37 : IVec S_ 1 := andi main_v32 main_v36
  let main_v38 : FVec F S256x256 .f32 := Host.absf main_arg8
  let main_cst_14 : FVec F S_ .f32 := constant S_ .f32 0x7F800000#32
  let main_v39 : FVec F S256x256 .f32 := broadcastInDim S256x256 ![] bcast_S_S256x256 main_cst_14
  let main_v40 : IVec S256x256 1 := cmpf .olt main_v38 main_v39
  let main_c_15 : IVec S_ 1 := constantI S_ 1 1#1
  let main_v41 : IVec S_ 1 := (fun x v => Host.reduce IntOp.andi x v reducesTo_S256x256_S_d0_1 h_S_) main_v40 main_c_15
  let main_v42 : IVec S_ 1 := andi main_v37 main_v41
  let main_v43 : FVec F S256 .f32 := Host.absf main_arg9
  let main_cst_16 : FVec F S_ .f32 := constant S_ .f32 0x7F800000#32
  let main_v44 : FVec F S256 .f32 := broadcastInDim S256 ![] bcast_S_S256 main_cst_16
  let main_v45 : IVec S256 1 := cmpf .olt main_v43 main_v44
  let main_c_17 : IVec S_ 1 := constantI S_ 1 1#1
  let main_v46 : IVec S_ 1 := (fun x v => Host.reduce IntOp.andi x v reducesTo_S256_S_d0 h_S_) main_v45 main_c_17
  let main_v47 : IVec S_ 1 := andi main_v42 main_v46
  let main_v48 : FVec F S128x256 .f32 := Host.absf main_arg10
  let main_cst_18 : FVec F S_ .f32 := constant S_ .f32 0x7F800000#32
  let main_v49 : FVec F S128x256 .f32 := broadcastInDim S128x256 ![] bcast_S_S128x256 main_cst_18
  let main_v50 : IVec S128x256 1 := cmpf .olt main_v48 main_v49
  fn_part3 (F := F) main_arg11 main_arg12 main_arg13 main_arg14 main_arg15 main_arg16 main_arg17 main_v47 main_v50

def fn_part1 {F : FTy → Type} [FloatOps F] (main_arg4 : FVec F S128x256 .f32) (main_arg5 : FVec F S256 .f32) (main_arg6 : FVec F S256x256 .f32) (main_arg7 : FVec F S256 .f32) (main_arg8 : FVec F S256x256 .f32) (main_arg9 : FVec F S256 .f32) (main_arg10 : FVec F S128x256 .f32) (main_arg11 : FVec F S256 .f32) (main_arg12 : FVec F S128x256 .f32) (main_arg13 : FVec F S256 .f32) (main_arg14 : FVec F S256x256 .f32) (main_arg15 : FVec F S256 .f32) (main_arg16 : FVec F S256x256 .f32) (main_arg17 : FVec F S256 .f32) (main_v12 : IVec S_ 1) (main_v15 : IVec S256 1) (main_c_5 : IVec S_ 1) : IVec S_ 1 :=
  let main_v16 : IVec S_ 1 := (fun x v => Host.reduce IntOp.andi x v reducesTo_S256_S_d0 h_S_) main_v15 main_c_5
  let main_v17 : IVec S_ 1 := andi main_v12 main_v16
  let main_v18 : FVec F S128x256 .f32 := Host.absf main_arg4
  let main_cst_6 : FVec F S_ .f32 := constant S_ .f32 0x7F800000#32
  let main_v19 : FVec F S128x256 .f32 := broadcastInDim S128x256 ![] bcast_S_S128x256 main_cst_6
  let main_v20 : IVec S128x256 1 := cmpf .olt main_v18 main_v19
  let main_c_7 : IVec S_ 1 := constantI S_ 1 1#1
  let main_v21 : IVec S_ 1 := (fun x v => Host.reduce IntOp.andi x v reducesTo_S128x256_S_d0_1 h_S_) main_v20 main_c_7
  let main_v22 : IVec S_ 1 := andi main_v17 main_v21
  let main_v23 : FVec F S256 .f32 := Host.absf main_arg5
  let main_cst_8 : FVec F S_ .f32 := constant S_ .f32 0x7F800000#32
  let main_v24 : FVec F S256 .f32 := broadcastInDim S256 ![] bcast_S_S256 main_cst_8
  let main_v25 : IVec S256 1 := cmpf .olt main_v23 main_v24
  let main_c_9 : IVec S_ 1 := constantI S_ 1 1#1
  let main_v26 : IVec S_ 1 := (fun x v => Host.reduce IntOp.andi x v reducesTo_S256_S_d0 h_S_) main_v25 main_c_9
  let main_v27 : IVec S_ 1 := andi main_v22 main_v26
  let main_v28 : FVec F S256x256 .f32 := Host.absf main_arg6
  let main_cst_10 : FVec F S_ .f32 := constant S_ .f32 0x7F800000#32
  let main_v29 : FVec F S256x256 .f32 := broadcastInDim S256x256 ![] bcast_S_S256x256 main_cst_10
  let main_v30 : IVec S256x256 1 := cmpf .olt main_v28 main_v29
  let main_c_11 : IVec S_ 1 := constantI S_ 1 1#1
  let main_v31 : IVec S_ 1 := (fun x v => Host.reduce IntOp.andi x v reducesTo_S256x256_S_d0_1 h_S_) main_v30 main_c_11
  let main_v32 : IVec S_ 1 := andi main_v27 main_v31
  let main_v33 : FVec F S256 .f32 := Host.absf main_arg7
  fn_part2 (F := F) main_arg8 main_arg9 main_arg10 main_arg11 main_arg12 main_arg13 main_arg14 main_arg15 main_arg16 main_arg17 main_v32 main_v33

def fn {F : FTy → Type} [FloatOps F] (main_arg0 : FVec F S50000x128 .f32) (main_arg1 : FVec F S_ .f32) (main_arg2 : FVec F S128x256 .f32) (main_arg3 : FVec F S256 .f32) (main_arg4 : FVec F S128x256 .f32) (main_arg5 : FVec F S256 .f32) (main_arg6 : FVec F S256x256 .f32) (main_arg7 : FVec F S256 .f32) (main_arg8 : FVec F S256x256 .f32) (main_arg9 : FVec F S256 .f32) (main_arg10 : FVec F S128x256 .f32) (main_arg11 : FVec F S256 .f32) (main_arg12 : FVec F S128x256 .f32) (main_arg13 : FVec F S256 .f32) (main_arg14 : FVec F S256x256 .f32) (main_arg15 : FVec F S256 .f32) (main_arg16 : FVec F S256x256 .f32) (main_arg17 : FVec F S256 .f32) (main_arg18 : IVec S2x800000 32) (main_arg19 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S128x256 .f32 := Host.absf main_arg2
  let main_cst_2 : FVec F S_ .f32 := constant S_ .f32 0x7F800000#32
  let main_v9 : FVec F S128x256 .f32 := broadcastInDim S128x256 ![] bcast_S_S128x256 main_cst_2
  let main_v10 : IVec S128x256 1 := cmpf .olt main_v8 main_v9
  let main_c_3 : IVec S_ 1 := constantI S_ 1 1#1
  let main_v11 : IVec S_ 1 := (fun x v => Host.reduce IntOp.andi x v reducesTo_S128x256_S_d0_1 h_S_) main_v10 main_c_3
  let main_v12 : IVec S_ 1 := andi main_v7 main_v11
  let main_v13 : FVec F S256 .f32 := Host.absf main_arg3
  let main_cst_4 : FVec F S_ .f32 := constant S_ .f32 0x7F800000#32
  let main_v14 : FVec F S256 .f32 := broadcastInDim S256 ![] bcast_S_S256 main_cst_4
  let main_v15 : IVec S256 1 := cmpf .olt main_v13 main_v14
  let main_c_5 : IVec S_ 1 := constantI S_ 1 1#1
  fn_part1 (F := F) main_arg4 main_arg5 main_arg6 main_arg7 main_arg8 main_arg9 main_arg10 main_arg11 main_arg12 main_arg13 main_arg14 main_arg15 main_arg16 main_arg17 main_v12 main_v15 main_c_5
-- ==== Kernel.lean ====
abbrev S50000x128 : Shape := ⟨2, ![50000, 128]⟩
abbrev S_ : Shape := ⟨0, ![]⟩
abbrev S128x256 : Shape := ⟨2, ![128, 256]⟩
abbrev S256 : Shape := ⟨1, ![256]⟩
abbrev S256x256 : Shape := ⟨2, ![256, 256]⟩
abbrev S2x800000 : Shape := ⟨2, ![2, 800000]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000x1 : Shape := ⟨2, ![50000, 1]⟩
abbrev S50000x256 : Shape := ⟨2, ![50000, 256]⟩
abbrev S5000x128 : Shape := ⟨2, ![5000, 128]⟩
abbrev S5000x256 : Shape := ⟨2, ![5000, 256]⟩
abbrev S1x256 : Shape := ⟨2, ![1, 256]⟩
abbrev S800000x256 : Shape := ⟨2, ![800000, 256]⟩
abbrev S512x256 : Shape := ⟨2, ![512, 256]⟩
abbrev S5000x512 : Shape := ⟨2, ![5000, 512]⟩

abbrev nBuf : Space → Nat
  | .hbm => 149
  | .vmem => 32
  | .smem => 0
  | _ => 0

abbrev hbmTy0_0 (i : Nat) : BufTy := match i % 128 with
  | 0 => ⟨S50000x128, .f32⟩
  | 1 => ⟨S_, .f32⟩
  | 2 => ⟨S128x256, .f32⟩
  | 3 => ⟨S256, .f32⟩
  | 4 => ⟨S128x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S128x256, .f32⟩
  | 11 => ⟨S256, .f32⟩
  | 12 => ⟨S128x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S2x800000, .i32⟩
  | 19 => ⟨S2x800000, .i32⟩
  | 20 => ⟨S1x800000, .i32⟩
  | 21 => ⟨S800000, .i32⟩
  | 22 => ⟨S1x800000, .i32⟩
  | 23 => ⟨S800000, .i32⟩
  | 24 => ⟨S1x800000, .i32⟩
  | 25 => ⟨S800000, .i32⟩
  | 26 => ⟨S1x800000, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S_, .f32⟩
  | 42 => ⟨S800000x1, .f32⟩
  | 43 => ⟨S_, .f32⟩
  | 44 => ⟨S50000x1, .f32⟩
  | 45 => ⟨S800000x1, .i32⟩
  | 46 => ⟨S50000x1, .f32⟩
  | 47 => ⟨S_, .f32⟩
  | 48 => ⟨S50000x1, .f32⟩
  | 49 => ⟨S50000x1, .f32⟩
  | 50 => ⟨S50000x128, .f32⟩
  | 51 => ⟨S50000x128, .f32⟩
  | 52 => ⟨S256x256, .f32⟩
  | 53 => ⟨S256, .f32⟩
  | 54 => ⟨S50000x256, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x256, .f32⟩
  | 64 => ⟨S_, .f32⟩
  | 65 => ⟨S50000x256, .f32⟩
  | 66 => ⟨S800000x1, .i32⟩
  | 67 => ⟨S50000x256, .f32⟩
  | 68 => ⟨S_, .f32⟩
  | 69 => ⟨S800000x1, .f32⟩
  | 70 => ⟨S_, .f32⟩
  | 71 => ⟨S50000x1, .f32⟩
  | 72 => ⟨S800000x1, .i32⟩
  | 73 => ⟨S50000x1, .f32⟩
  | 74 => ⟨S_, .f32⟩
  | 75 => ⟨S50000x1, .f32⟩
  | 76 => ⟨S50000x1, .f32⟩
  | 77 => ⟨S50000x256, .f32⟩
  | 78 => ⟨S50000x256, .f32⟩
  | 79 => ⟨S512x256, .f32⟩
  | 80 => ⟨S256, .f32⟩
  | 81 => ⟨S50000x256, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S_, .f32⟩
  | 92 => ⟨S50000x128, .f32⟩
  | 93 => ⟨S800000x1, .i32⟩
  | 94 => ⟨S50000x128, .f32⟩
  | 95 => ⟨S_, .f32⟩
  | 96 => ⟨S800000x1, .f32⟩
  | 97 => ⟨S_, .f32⟩
  | 98 => ⟨S50000x1, .f32⟩
  | 99 => ⟨S800000x1, .i32⟩
  | 100 => ⟨S50000x1, .f32⟩
  | 101 => ⟨S_, .f32⟩
  | 102 => ⟨S50000x1, .f32⟩
  | 103 => ⟨S50000x1, .f32⟩
  | 104 => ⟨S50000x128, .f32⟩
  | 105 => ⟨S50000x128, .f32⟩
  | 106 => ⟨S256x256, .f32⟩
  | 107 => ⟨S256, .f32⟩
  | 108 => ⟨S50000x256, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x256, .f32⟩
  | 118 => ⟨S_, .f32⟩
  | 119 => ⟨S50000x256, .f32⟩
  | 120 => ⟨S800000x1, .i32⟩
  | 121 => ⟨S50000x256, .f32⟩
  | 122 => ⟨S_, .f32⟩
  | 123 => ⟨S800000x1, .f32⟩
  | 124 => ⟨S_, .f32⟩
  | 125 => ⟨S50000x1, .f32⟩
  | 126 => ⟨S800000x1, .i32⟩
  | 127 => ⟨S50000x1, .f32⟩
  | _ => ⟨S50000x128, .f32⟩

abbrev hbmTy0_1 (i : Nat) : BufTy := match i % 128 with
  | 0 => ⟨S_, .f32⟩
  | 1 => ⟨S50000x1, .f32⟩
  | 2 => ⟨S50000x1, .f32⟩
  | 3 => ⟨S50000x256, .f32⟩
  | 4 => ⟨S50000x256, .f32⟩
  | 5 => ⟨S512x256, .f32⟩
  | 6 => ⟨S256, .f32⟩
  | 7 => ⟨S50000x256, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S50000x256, .f32⟩
  | 15 => ⟨S50000x256, .f32⟩
  | 16 => ⟨S_, .f32⟩
  | 17 => ⟨S_, .f32⟩
  | 18 => ⟨S50000x256, .f32⟩
  | 19 => ⟨S50000x256, .f32⟩
  | 20 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x256, .f32⟩
  | .local _ .vmem, ⟨5, _⟩ => ⟨S256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S512x256, .f32⟩
  | .local _ .vmem, ⟨13, _⟩ => ⟨S256, .f32⟩
  | .local _ .vmem, ⟨14, _⟩ => ⟨S5000x256, .f32⟩
  | .local _ .vmem, ⟨15, _⟩ => ⟨S5000x256, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S256x256, .f32⟩
  | .local _ .vmem, ⟨21, _⟩ => ⟨S256, .f32⟩
  | .local _ .vmem, ⟨22, _⟩ => ⟨S5000x256, .f32⟩
  | .local _ .vmem, ⟨23, _⟩ => ⟨S5000x256, .f32⟩
  | .local _ .vmem, ⟨24, _⟩ => ⟨S5000x256, .f32⟩
  | .local _ .vmem, ⟨25, _⟩ => ⟨S5000x256, .f32⟩
  | .local _ .vmem, ⟨26, _⟩ => ⟨S5000x256, .f32⟩
  | .local _ .vmem, ⟨27, _⟩ => ⟨S5000x256, .f32⟩
  | .local _ .vmem, ⟨28, _⟩ => ⟨S512x256, .f32⟩
  | .local _ .vmem, ⟨29, _⟩ => ⟨S256, .f32⟩
  | .local _ .vmem, ⟨30, _⟩ => ⟨S5000x256, .f32⟩
  | .local _ .vmem, ⟨31, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_cst_2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_4 : Ref sig .tc := ⟨.hbm, 55, rfl⟩
abbrev main_v29 : Ref sig .tc := ⟨.hbm, 56, rfl⟩
abbrev main_v30 : Ref sig .tc := ⟨.hbm, 57, rfl⟩
abbrev main_c_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_cst_8 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_10 : Ref sig .tc := ⟨.hbm, 82, rfl⟩
abbrev main_v50 : Ref sig .tc := ⟨.hbm, 83, rfl⟩
abbrev main_v51 : Ref sig .tc := ⟨.hbm, 84, rfl⟩
abbrev main_c_11 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_12 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_13 : Ref sig .tc := ⟨.hbm, 95, rfl⟩
abbrev main_v60 : Ref sig .tc := ⟨.hbm, 96, rfl⟩
abbrev main_cst_14 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_15 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_16 : Ref sig .tc := ⟨.hbm, 109, rfl⟩
abbrev main_v71 : Ref sig .tc := ⟨.hbm, 110, rfl⟩
abbrev main_v72 : Ref sig .tc := ⟨.hbm, 111, rfl⟩
abbrev main_c_17 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_18 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_19 : Ref sig .tc := ⟨.hbm, 122, rfl⟩
abbrev main_v81 : Ref sig .tc := ⟨.hbm, 123, rfl⟩
abbrev main_cst_20 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_21 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_22 : Ref sig .tc := ⟨.hbm, 138, rfl⟩
abbrev main_v94 : Ref sig .tc := ⟨.hbm, 139, rfl⟩
abbrev main_cst_23 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_24 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S128x256_S128x256_S256x256_d0 : Shape.Concatenates [S128x256, S128x256] S256x256 0
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  concatenates_S256x256_S256x256_S512x256_d0 : Shape.Concatenates [S256x256, S256x256] S512x256 0
  shapeCasts_S5000x256_S5000x256 : S5000x256.ShapeCasts S5000x256
  concatenates_S5000x256_S5000x256_S5000x512_d1 : Shape.Concatenates [S5000x256, S5000x256] S5000x512 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S5000x256_S256x256_S5000x256_1_0_0_1_n_n_wf : DotDims.WF S5000x256 S256x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x512_S512x256_S5000x256_1_0_0_1_n_n_wf : DotDims.WF S5000x512 S512x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S50000x256.size a
  hwx0_4 : ∀ i : grid0.Coords, EltTy.bits .f32 = 32 ∨ (Rect.block (s := S50000x256) S5000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .f32 = 32 ∨ (Rect.block (s := S512x256) S512x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x256.size a ≤ S50000x256.size a
  hwx1_4 : ∀ i : grid1.Coords, EltTy.bits .f32 = 32 ∨ (Rect.block (s := S50000x256) S5000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x256.size a ≤ S50000x256.size a
  hwx2_4 : ∀ i : grid2.Coords, EltTy.bits .f32 = 32 ∨ (Rect.block (s := S50000x256) S5000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x256.size a ≤ S50000x256.size a
  hwx3_1 : ∀ i : grid3.Coords, EltTy.bits .f32 = 32 ∨ (Rect.block (s := S50000x256) S5000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x256.size a ≤ S512x256.size a
  hwx3_2 : ∀ i : grid3.Coords, EltTy.bits .f32 = 32 ∨ (Rect.block (s := S512x256) S512x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x256.size a ≤ S50000x256.size a
  hwx3_4 : ∀ i : grid3.Coords, EltTy.bits .f32 = 32 ∨ (Rect.block (s := S50000x256) S5000x256.size (cc3_transform_4 i) (hinb3_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S5000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v28) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S5000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v68) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S5000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v70) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S5000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v89) S512x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v90) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v91) S5000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S_ : Shape := ⟨0, ![]⟩
abbrev S128x256 : Shape := ⟨2, ![128, 256]⟩
abbrev S256 : Shape := ⟨1, ![256]⟩
abbrev S256x256 : Shape := ⟨2, ![256, 256]⟩
abbrev S2x800000 : Shape := ⟨2, ![2, 800000]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩

abbrev nBuf : Space → Nat
  | .hbm => 185
  | .vmem => 0
  | .smem => 0
  | _ => 0

abbrev hbmTy0_0 (i : Nat) : BufTy := match i % 128 with
  | 0 => ⟨S50000x128, .f32⟩
  | 1 => ⟨S_, .f32⟩
  | 2 => ⟨S128x256, .f32⟩
  | 3 => ⟨S256, .f32⟩
  | 4 => ⟨S128x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S128x256, .f32⟩
  | 11 => ⟨S256, .f32⟩
  | 12 => ⟨S128x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S2x800000, .i32⟩
  | 19 => ⟨S2x800000, .i32⟩
  | 20 => ⟨S1x800000, .i32⟩
  | 21 => ⟨S800000, .i32⟩
  | 22 => ⟨S1x800000, .i32⟩
  | 23 => ⟨S800000, .i32⟩
  | 24 => ⟨S1x800000, .i32⟩
  | 25 => ⟨S800000, .i32⟩
  | 26 => ⟨S1x800000, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S_, .f32⟩
  | 42 => ⟨S800000x1, .f32⟩
  | 43 => ⟨S_, .f32⟩
  | 44 => ⟨S50000x1, .f32⟩
  | 45 => ⟨S800000x1, .i32⟩
  | 46 => ⟨S50000x1, .f32⟩
  | 47 => ⟨S_, .f32⟩
  | 48 => ⟨S50000x1, .f32⟩
  | 49 => ⟨S50000x1, .f32⟩
  | 50 => ⟨S50000x128, .f32⟩
  | 51 => ⟨S50000x128, .f32⟩
  | 52 => ⟨S50000x256, .f32⟩
  | 53 => ⟨S1x256, .f32⟩
  | 54 => ⟨S50000x256, .f32⟩
  | 55 => ⟨S50000x256, .f32⟩
  | 56 => ⟨S50000x256, .f32⟩
  | 57 => ⟨S50000x256, .f32⟩
  | 58 => ⟨S1x256, .f32⟩
  | 59 => ⟨S50000x256, .f32⟩
  | 60 => ⟨S50000x256, .f32⟩
  | 61 => ⟨S_, .f32⟩
  | 62 => ⟨S50000x256, .f32⟩
  | 63 => ⟨S50000x256, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x256, .f32⟩
  | 73 => ⟨S_, .f32⟩
  | 74 => ⟨S50000x256, .f32⟩
  | 75 => ⟨S800000x1, .i32⟩
  | 76 => ⟨S50000x256, .f32⟩
  | 77 => ⟨S_, .f32⟩
  | 78 => ⟨S800000x1, .f32⟩
  | 79 => ⟨S_, .f32⟩
  | 80 => ⟨S50000x1, .f32⟩
  | 81 => ⟨S800000x1, .i32⟩
  | 82 => ⟨S50000x1, .f32⟩
  | 83 => ⟨S_, .f32⟩
  | 84 => ⟨S50000x1, .f32⟩
  | 85 => ⟨S50000x1, .f32⟩
  | 86 => ⟨S50000x256, .f32⟩
  | 87 => ⟨S50000x256, .f32⟩
  | 88 => ⟨S50000x256, .f32⟩
  | 89 => ⟨S1x256, .f32⟩
  | 90 => ⟨S50000x256, .f32⟩
  | 91 => ⟨S50000x256, .f32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S_, .f32⟩
  | 98 => ⟨S50000x256, .f32⟩
  | 99 => ⟨S50000x256, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S_, .f32⟩
  | 110 => ⟨S50000x128, .f32⟩
  | 111 => ⟨S800000x1, .i32⟩
  | 112 => ⟨S50000x128, .f32⟩
  | 113 => ⟨S_, .f32⟩
  | 114 => ⟨S800000x1, .f32⟩
  | 115 => ⟨S_, .f32⟩
  | 116 => ⟨S50000x1, .f32⟩
  | 117 => ⟨S800000x1, .i32⟩
  | 118 => ⟨S50000x1, .f32⟩
  | 119 => ⟨S_, .f32⟩
  | 120 => ⟨S50000x1, .f32⟩
  | 121 => ⟨S50000x1, .f32⟩
  | 122 => ⟨S50000x128, .f32⟩
  | 123 => ⟨S50000x128, .f32⟩
  | 124 => ⟨S50000x256, .f32⟩
  | 125 => ⟨S1x256, .f32⟩
  | 126 => ⟨S50000x256, .f32⟩
  | 127 => ⟨S50000x256, .f32⟩
  | _ => ⟨S50000x128, .f32⟩

abbrev hbmTy0_1 (i : Nat) : BufTy := match i % 128 with
  | 0 => ⟨S50000x256, .f32⟩
  | 1 => ⟨S50000x256, .f32⟩
  | 2 => ⟨S1x256, .f32⟩
  | 3 => ⟨S50000x256, .f32⟩
  | 4 => ⟨S50000x256, .f32⟩
  | 5 => ⟨S_, .f32⟩
  | 6 => ⟨S50000x256, .f32⟩
  | 7 => ⟨S50000x256, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x256, .f32⟩
  | 17 => ⟨S_, .f32⟩
  | 18 => ⟨S50000x256, .f32⟩
  | 19 => ⟨S800000x1, .i32⟩
  | 20 => ⟨S50000x256, .f32⟩
  | 21 => ⟨S_, .f32⟩
  | 22 => ⟨S800000x1, .f32⟩
  | 23 => ⟨S_, .f32⟩
  | 24 => ⟨S50000x1, .f32⟩
  | 25 => ⟨S800000x1, .i32⟩
  | 26 => ⟨S50000x1, .f32⟩
  | 27 => ⟨S_, .f32⟩
  | 28 => ⟨S50000x1, .f32⟩
  | 29 => ⟨S50000x1, .f32⟩
  | 30 => ⟨S50000x256, .f32⟩
  | 31 => ⟨S50000x256, .f32⟩
  | 32 => ⟨S50000x256, .f32⟩
  | 33 => ⟨S1x256, .f32⟩
  | 34 => ⟨S50000x256, .f32⟩
  | 35 => ⟨S50000x256, .f32⟩
  | 36 => ⟨S50000x256, .f32⟩
  | 37 => ⟨S50000x256, .f32⟩
  | 38 => ⟨S1x256, .f32⟩
  | 39 => ⟨S50000x256, .f32⟩
  | 40 => ⟨S50000x256, .f32⟩
  | 41 => ⟨S_, .f32⟩
  | 42 => ⟨S50000x256, .f32⟩
  | 43 => ⟨S50000x256, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S50000x256, .f32⟩
  | 51 => ⟨S50000x256, .f32⟩
  | 52 => ⟨S_, .f32⟩
  | 53 => ⟨S_, .f32⟩
  | 54 => ⟨S50000x256, .f32⟩
  | 55 => ⟨S50000x256, .f32⟩
  | 56 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_cst_2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call0_cst : Ref sig .tc := ⟨.hbm, 61, rfl⟩
abbrev main_call0_v0 : Ref sig .tc := ⟨.hbm, 62, rfl⟩
abbrev main_v35 : Ref sig .tc := ⟨.hbm, 63, rfl⟩
abbrev main_c_4 : Ref sig .tc := ⟨.hbm, 64, rfl⟩
abbrev main_v36 : Ref sig .tc := ⟨.hbm, 65, rfl⟩
abbrev main_v37 : Ref sig .tc := ⟨.hbm, 66, rfl⟩
abbrev main_c_5 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_6 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_7 : Ref sig .tc := ⟨.hbm, 77, rfl⟩
abbrev main_v46 : Ref sig .tc := ⟨.hbm, 78, rfl⟩
abbrev main_cst_8 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_9 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_call1_cst : Ref sig .tc := ⟨.hbm, 97, rfl⟩
abbrev main_call1_v0 : Ref sig .tc := ⟨.hbm, 98, rfl⟩
abbrev main_v63 : Ref sig .tc := ⟨.hbm, 99, rfl⟩
abbrev main_c_10 : Ref sig .tc := ⟨.hbm, 100, rfl⟩
abbrev main_v64 : Ref sig .tc := ⟨.hbm, 101, rfl⟩
abbrev main_v65 : Ref sig .tc := ⟨.hbm, 102, rfl⟩
abbrev main_c_11 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_12 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_13 : Ref sig .tc := ⟨.hbm, 113, rfl⟩
abbrev main_v74 : Ref sig .tc := ⟨.hbm, 114, rfl⟩
abbrev main_cst_14 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_15 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_call2_cst : Ref sig .tc := ⟨.hbm, 133, rfl⟩
abbrev main_call2_v0 : Ref sig .tc := ⟨.hbm, 134, rfl⟩
abbrev main_v91 : Ref sig .tc := ⟨.hbm, 135, rfl⟩
abbrev main_c_16 : Ref sig .tc := ⟨.hbm, 136, rfl⟩
abbrev main_v92 : Ref sig .tc := ⟨.hbm, 137, rfl⟩
abbrev main_v93 : Ref sig .tc := ⟨.hbm, 138, rfl⟩
abbrev main_c_17 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_18 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_19 : Ref sig .tc := ⟨.hbm, 149, rfl⟩
abbrev main_v102 : Ref sig .tc := ⟨.hbm, 150, rfl⟩
abbrev main_cst_20 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_21 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_call3_cst : Ref sig .tc := ⟨.hbm, 169, rfl⟩
abbrev main_call3_v0 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_cst_22 : Ref sig .tc := ⟨.hbm, 174, rfl⟩
abbrev main_v122 : Ref sig .tc := ⟨.hbm, 175, rfl⟩
abbrev main_cst_23 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_cst_24 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The idealized kernel's run with its final memory named.

  @main is nine segments: a stretch of host operations, a kernel region, and so on, ending in a stretch of host
  operations. The contents of the TensorCore's buffers at each boundary are a fold from the launch memory: a stretch
  of host operations applies its operations, a region replaces its output array by what its write-backs leave. The
  launch theorem for a program of several regions says every weakly fair execution terminates with every unscoped
  buffer holding the last of these boundary contents. Read at the result buffer this names the result; read at an
  argument it is the launch value, since nothing writes an argument.
-/
import proofs.«116379_j75033078661165_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and in every final state each unscoped buffer of each core holds
    the last boundary contents of the fold through @main's segments. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The run with the result buffer at the last boundary contents and every argument as launched. -/
theorem run_result : θ_run defs (onTc (τ := τ) (main (F := F))) ⟨m, fun _ => 0, ρ⟩ (fun r => ∀ c : Dev nD,
      r.2.mem ((c.tc : Thread nD τ).loc main_v101) = W9 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨h c _ (mem_uc main_v101 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c),
     (h c _ (mem_uc main_arg12 (by decide))).trans (W9_main_arg12 m ρ c),
     (h c _ (mem_uc main_arg13 (by decide))).trans (W9_main_arg13 m ρ c),
     (h c _ (mem_uc main_arg14 (by decide))).trans (W9_main_arg14 m ρ c),
     (h c _ (mem_uc main_arg15 (by decide))).trans (W9_main_arg15 m ρ c),
     (h c _ (mem_uc main_arg16 (by decide))).trans (W9_main_arg16 m ρ c),
     (h c _ (mem_uc main_arg17 (by decide))).trans (W9_main_arg17 m ρ c),
     (h c _ (mem_uc main_arg18 (by decide))).trans (W9_main_arg18 m ρ c),
     (h c _ (mem_uc main_arg19 (by decide))).trans (W9_main_arg19 m ρ c)⟩)
    (run_boundary m ρ)

end Cert.KernelIdeal.RunValue

end
-- ==== Proof.LibSageLayer.lean ====
/-
  One layer of a graph network with mean aggregation, over the extended reals: the pieces its two spellings share.

  The layer's entry (p, q) is  max( x(p,·)·ws(·,q) + bs(q) + nei(p,·)·wn(·,q) + bn(q), 0 ).
  One spelling forms the two products separately and adds the biases one at a time. The other lays x and nei side by
  side along the columns, stacks ws on wn along the rows, forms ONE product over the doubled axis and adds bs + bn.

  * `entry_eq`: the two spellings agree. A sum over an axis of length K + K is the sum over its first K positions plus
    the sum over its last K; the rest is commutativity and associativity of addition, which hold on all extended reals
    (no entry need be finite).
  * `cat_cols_left` / `cat_cols_right`, `cat_rows_left` / `cat_rows_right`: a two-piece concatenation of matrices read at
    an entry of either piece, along the columns and along the rows.
  * `dotGeneral_rows_cols`: a host matrix product [A, K] · [K, B] read at (p, q) is ∑ k, L(p,k) · R(k,q), for any
    dimension record whose index facts are supplied.
-/
import Idealize.ShloMosaic.Lib.ValueIdx
import Idealize.ShloMosaic.Lib.Pipeline.Value
import Idealize.ShloMosaic.PureOps.Ideal.Laws

noncomputable section

namespace Cert.SageLayer

open Idealize.ShloMosaic Idealize.ShloMosaic.ValueIdx

/-- The concatenated spelling of one entry equals the separate one. `cr` is a row of the side-by-side matrix (its
    first K entries the row `xr` of x, its last K the row `nr` of nei), `wq` a column of the stacked weights (first K
    entries the column `wsq` of ws, last K the column `wnq` of wn). -/
theorem entry_eq {K K2 : ℕ} (hK : K2 = K + K) (cr wq : Fin K2 → EReal) (xr nr wsq wnq : Fin K → EReal)
    (hcl : ∀ k : Fin K, cr ⟨k.val, by omega⟩ = xr k) (hcr : ∀ k : Fin K, cr ⟨K + k.val, by omega⟩ = nr k)
    (hwl : ∀ k : Fin K, wq ⟨k.val, by omega⟩ = wsq k) (hwr : ∀ k : Fin K, wq ⟨K + k.val, by omega⟩ = wnq k)
    (bs bn : EReal) :
    max ((∑ k, cr k * wq k) + (bs + bn)) 0
      = max ((((∑ k, xr k * wsq k) + bs) + ∑ k, nr k * wnq k) + bn) 0 := by
  subst hK
  -- the doubled axis splits into its two halves
  rw [Fin.sum_univ_add]
  have h1 : ∀ k : Fin K, cr (Fin.castAdd K k) * wq (Fin.castAdd K k) = xr k * wsq k := fun k => by
    rw [← hcl k, ← hwl k]; rfl
  have h2 : ∀ k : Fin K, cr (Fin.natAdd K k) * wq (Fin.natAdd K k) = nr k * wnq k := fun k => by
    rw [← hcr k, ← hwr k]; rfl
  simp only [h1, h2]
  -- (a + b) + (s + n) = ((a + s) + b) + n
  rw [add_add_add_comm, ← add_assoc]

/-- Row `r` of two [A, K] matrices laid side by side, as a function of the column: the first matrix's row on the first
    K columns, the second's on the next K. -/
def catRow {A K K2 : ℕ} (X NEI : (⟨2, ![A, K]⟩ : Shape).Idx → EReal) (r : Fin A) (k : Fin K2) : EReal :=
  if h : k.val < K then X (ix2 r ⟨k.val, h⟩) else if h2 : k.val - K < K then NEI (ix2 r ⟨k.val - K, h2⟩) else 0

theorem catRow_left {A K K2 : ℕ} (X NEI : (⟨2, ![A, K]⟩ : Shape).Idx → EReal) (r : Fin A) (k : Fin K) (hk : k.val < K2) :
    catRow X NEI r (⟨k.val, hk⟩ : Fin K2) = X (ix2 r k) := by
  unfold catRow; rw [dif_pos k.isLt]

theorem catRow_right {A K K2 : ℕ} (X NEI : (⟨2, ![A, K]⟩ : Shape).Idx → EReal) (r : Fin A) (k : Fin K) (hk : K + k.val < K2) :
    catRow X NEI r (⟨K + k.val, hk⟩ : Fin K2) = NEI (ix2 r k) := by
  unfold catRow
  have h1 : ¬ (K + k.val < K) := by omega
  have h2 : K + k.val - K < K := by have := k.isLt; omega
  rw [dif_neg h1, dif_pos h2]
  exact congrArg (fun z => NEI (ix2 r z)) (Fin.ext (by show K + k.val - K = k.val; omega))

/-- Entry (p, q) of the layer in its concatenated spelling: the side-by-side row p against column q of a [K2, M]
    matrix, plus entry q of a bias vector, and the maximum of that with zero. -/
def denseEntry {A K K2 M : ℕ} (X NEI : (⟨2, ![A, K]⟩ : Shape).Idx → EReal) (W : (⟨2, ![K2, M]⟩ : Shape).Idx → EReal)
    (B : (⟨1, ![M]⟩ : Shape).Idx → EReal) (p : Fin A) (q : Fin M) : EReal :=
  max ((∑ k : Fin K2, catRow X NEI p k * W (ix2 k q)) + B (ix1 q)) 0

/-- The layer in its concatenated spelling, as one function of whole arrays. -/
def dense {A K K2 M : ℕ} (X NEI : (⟨2, ![A, K]⟩ : Shape).Idx → EReal) (W : (⟨2, ![K2, M]⟩ : Shape).Idx → EReal)
    (B : (⟨1, ![M]⟩ : Shape).Idx → EReal) : (⟨2, ![A, M]⟩ : Shape).Idx → EReal :=
  fun i => denseEntry X NEI W B (i 0) (i 1)

/-- An entry depends only on row p of the two feature matrices, column q of the weights and entry q of the bias: two
    settings that agree on those (possibly at different row and column numbers, as a block and the array it is cut
    from do) have the same entry. -/
theorem denseEntry_congr {A A' K K2 M M' : ℕ}
    (X NEI : (⟨2, ![A, K]⟩ : Shape).Idx → EReal) (W : (⟨2, ![K2, M]⟩ : Shape).Idx → EReal) (B : (⟨1, ![M]⟩ : Shape).Idx → EReal)
    (X' NEI' : (⟨2, ![A', K]⟩ : Shape).Idx → EReal) (W' : (⟨2, ![K2, M']⟩ : Shape).Idx → EReal) (B' : (⟨1, ![M']⟩ : Shape).Idx → EReal)
    (p : Fin A) (q : Fin M) (p' : Fin A') (q' : Fin M')
    (hX : ∀ k : Fin K, X (ix2 p k) = X' (ix2 p' k)) (hN : ∀ k : Fin K, NEI (ix2 p k) = NEI' (ix2 p' k))
    (hW : ∀ k : Fin K2, W (ix2 k q) = W' (ix2 k q')) (hB : B (ix1 q) = B' (ix1 q')) :
    denseEntry X NEI W B p q = denseEntry X' NEI' W' B' p' q' := by
  unfold denseEntry
  rw [hB]
  refine congrArg (fun s => max (s + B' (ix1 q')) 0) (Finset.sum_congr rfl fun k _ => ?_)
  rw [hW k]
  refine congrArg (· * W' (ix2 k q')) ?_
  unfold catRow
  split
  · exact hX _
  · split
    · exact hN _
    · rfl

variable {α : Type}

/-- Two [A, K] matrices side by side: a column below K reads the first. -/
theorem cat_cols_left {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : k.val < K2) :
    concatenate ⟨2, ![A, K2]⟩ (1 : Fin 2) [⟨⟨2, ![A, K]⟩, x₁⟩, ⟨⟨2, ![A, K]⟩, x₂⟩] h (ix2 p ⟨k.val, hk⟩) = x₁ (ix2 p k) :=
  concatenate_pair_apply_left (t := ⟨2, ![A, K2]⟩) (1 : Fin 2) x₁ x₂ h (ix2 p ⟨k.val, hk⟩) rfl (ix2 p k) fun b => by
    match b with
    | ⟨0, _⟩ => rfl
    | ⟨1, _⟩ => rfl

/-- Two [A, K] matrices side by side: column K + k reads the second at column k. -/
theorem cat_cols_right {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : K + k.val < K2) :
    concatenate ⟨2, ![A, K2]⟩ (1 : Fin 2) [⟨⟨2, ![A, K]⟩, x₁⟩, ⟨⟨2, ![A, K]⟩, x₂⟩] h (ix2 p ⟨K + k.val, hk⟩) = x₂ (ix2 p k) :=
  concatenate_pair_apply_right (t := ⟨2, ![A, K2]⟩) (1 : Fin 2) x₁ x₂ h (ix2 p ⟨K + k.val, hk⟩) rfl rfl (ix2 p k)
    (fun b hb => by
      match b with
      | ⟨0, _⟩ => rfl
      | ⟨1, _⟩ => exact absurd rfl hb)
    (by show k.val + K = K + k.val; omega)

/-- Two [K, M] matrices one above the other: a row below K reads the first. -/
theorem cat_rows_left {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : k.val < K2) :
    concatenate ⟨2, ![K2, M]⟩ (0 : Fin 2) [⟨⟨2, ![K, M]⟩, x₁⟩, ⟨⟨2, ![K, M]⟩, x₂⟩] h (ix2 ⟨k.val, hk⟩ q) = x₁ (ix2 k q) :=
  concatenate_pair_apply_left (t := ⟨2, ![K2, M]⟩) (0 : Fin 2) x₁ x₂ h (ix2 ⟨k.val, hk⟩ q) rfl (ix2 k q) fun b => by
    match b with
    | ⟨0, _⟩ => rfl
    | ⟨1, _⟩ => rfl

/-- Two [K, M] matrices one above the other: row K + k reads the second at row k. -/
theorem cat_rows_right {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : K + k.val < K2) :
    concatenate ⟨2, ![K2, M]⟩ (0 : Fin 2) [⟨⟨2, ![K, M]⟩, x₁⟩, ⟨⟨2, ![K, M]⟩, x₂⟩] h (ix2 ⟨K + k.val, hk⟩ q) = x₂ (ix2 k q) :=
  concatenate_pair_apply_right (t := ⟨2, ![K2, M]⟩) (0 : Fin 2) x₁ x₂ h (ix2 ⟨K + k.val, hk⟩ q) rfl rfl (ix2 k q)
    (fun b hb => by
      match b with
      | ⟨0, _⟩ => exact absurd rfl hb
      | ⟨1, _⟩ => rfl)
    (by show k.val + K = K + k.val; omega)

/-- A concatenation of two [A, K] matrices along the columns, read at (p, k), is the side-by-side row. -/
theorem cat_cols_eq_catRow {A K K2 : ℕ} (hK : K2 = K + K) (x₁ x₂ : (⟨2, ![A, K]⟩ : Shape).Idx → EReal)
    (h : Shape.Concatenates [(⟨2, ![A, K]⟩ : Shape), ⟨2, ![A, K]⟩] ⟨2, ![A, K2]⟩ (1 : Fin 2)) (p : Fin A) (k : Fin K2) :
    concatenate ⟨2, ![A, K2]⟩ (1 : Fin 2) [⟨⟨2, ![A, K]⟩, x₁⟩, ⟨⟨2, ![A, K]⟩, x₂⟩] h (ix2 p k) = catRow x₁ x₂ p k := by
  by_cases hk : k.val < K
  · have e : k = ⟨(⟨k.val, hk⟩ : Fin K).val, k.isLt⟩ := rfl
    rw [e, cat_cols_left x₁ x₂ h p ⟨k.val, hk⟩ k.isLt, catRow_left x₁ x₂ p ⟨k.val, hk⟩ k.isLt]
  · have hk2 : k.val - K < K := by have := k.isLt; omega
    have hlt : K + (⟨k.val - K, hk2⟩ : Fin K).val < K2 := by show K + (k.val - K) < K2; have := k.isLt; omega
    have e : k = ⟨K + (⟨k.val - K, hk2⟩ : Fin K).val, hlt⟩ := Fin.ext (by show k.val = K + (k.val - K); omega)
    rw [e, cat_cols_right x₁ x₂ h p ⟨k.val - K, hk2⟩ hlt, catRow_right x₁ x₂ p ⟨k.val - K, hk2⟩ hlt]

/-- A host matrix product read at (p, q): the sum over the contracted axis of the left operand's row p times the
    right operand's column q. -/
theorem dotGeneral_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    Host.dotGeneral d prec L R (ix2 p q) = ∑ k : Fin K, L (ix2 p k) * R (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.SageLayer

end
-- ==== Proof.SageNet.lean ====
/-
  The network both programs compute, as functions of whole arrays over the extended reals.

  Two streams (one per edge list), each two layers; a layer takes node features x, forms the mean `nei` of every node's
  neighbours' features along the stream's edges, and returns max(x·ws + bs + nei·wn + bn, 0). The result mixes the two
  streams' outputs with weights σ(α) and 1 − σ(α), σ(α) = 1 / (1 + exp(−α)).
  `layerCat` is a layer in the concatenated spelling (one product of [x | nei] with ws stacked on wn, plus bs + bn).
-/
import proofs.«116379_j75033078661165_1_alg».proof.Proof.Gen.KernelIdeal
import proofs.«116379_j75033078661165_1_alg».proof.Proof.LibSageLayer

noncomputable section

namespace Cert.Sage

open Cert.KernelIdeal Cert.KernelIdeal.Gen Cert.SageLayer
open Idealize.ShloMosaic

/-- The edges' destination node numbers: row 0 of the [2, E] edge list. -/
def eRow (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000

/-- The edges' source node numbers: row 1 of the edge list. -/
def eCol (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-- The mean of the neighbours' features, width 128: the rows of `x` at the edges' source nodes (a negative node number
    counted from the end), summed into the edges' destination nodes, divided by the number of edges into each node
    plus a small constant. `row` holds the destination and `col` the source node number of each edge. -/
def nei128 (x : FVec Ideal S50000x128 .f32) (row col : (⟨S800000, .i32⟩ : BufTy).Contents (Elt Ideal)) :
    FVec Ideal S50000x128 .f32 :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 row)
      (Host.gather gather_S50000x128_S800000x1_S800000x128_1_0_n_n_0_1_1128 x
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))
    (broadcastInDim S50000x128 ![0, 1] bcast_S50000x1_S50000x128_0_1
      (addf (F := Ideal)
        (Host.scatterAdd (F := Ideal) scatter_S50000x1_S800000x1_S800000x1_1_0_0_1
          (broadcastInDim S50000x1 ![] bcast_S_S50000x1 (constant (F := Ideal) S_ .f32 0x00000000#32))
          (broadcastInDim S800000x1 ![0] bcast_S800000_S800000x1_0 row)
          (broadcastInDim S800000x1 ![] bcast_S_S800000x1 (constant (F := Ideal) S_ .f32 0x3F800000#32)))
        (broadcastInDim S50000x1 ![] bcast_S_S50000x1 (constant (F := Ideal) S_ .f32 0x2B8CBCCC#32))))

/-- The mean of the neighbours' features, width 256: the rows of `x` at the edges' source nodes (a negative node number
    counted from the end), summed into the edges' destination nodes, divided by the number of edges into each node
    plus a small constant. `row` holds the destination and `col` the source node number of each edge. -/
def nei256 (x : FVec Ideal S50000x256 .f32) (row col : (⟨S800000, .i32⟩ : BufTy).Contents (Elt Ideal)) :
    FVec Ideal S50000x256 .f32 :=
  Host.divf (F := Ideal)
    (Host.scatterAdd (F := Ideal) scatter_S50000x256_S800000x1_S800000x256_1_0_0_1
      (broadcastInDim S50000x256 ![] bcast_S_S50000x256 (constant (F := Ideal) S_ .f32 0x00000000#32))
      (broadcastInDim S800000x1 ![0] bcast_S800000_S800000x1_0 row)
      (Host.gather gather_S50000x256_S800000x1_S800000x256_1_0_n_n_0_1_1256 x
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))
    (broadcastInDim S50000x256 ![0, 1] bcast_S50000x1_S50000x256_0_1
      (addf (F := Ideal)
        (Host.scatterAdd (F := Ideal) scatter_S50000x1_S800000x1_S800000x1_1_0_0_1
          (broadcastInDim S50000x1 ![] bcast_S_S50000x1 (constant (F := Ideal) S_ .f32 0x00000000#32))
          (broadcastInDim S800000x1 ![0] bcast_S800000_S800000x1_0 row)
          (broadcastInDim S800000x1 ![] bcast_S_S800000x1 (constant (F := Ideal) S_ .f32 0x3F800000#32)))
        (broadcastInDim S50000x1 ![] bcast_S_S50000x1 (constant (F := Ideal) S_ .f32 0x2B8CBCCC#32))))

/-- ws stacked on wn, first layer's sizes. -/
def wcat128 (ws wn : FVec Ideal S128x256 .f32) : FVec Ideal S256x256 .f32 :=
  concatenate S256x256 0 [⟨S128x256, ws⟩, ⟨S128x256, wn⟩] concatenates_S128x256_S128x256_S256x256_d0

/-- ws stacked on wn, second layer's sizes. -/
def wcat256 (ws wn : FVec Ideal S256x256 .f32) : FVec Ideal S512x256 .f32 :=
  concatenate S512x256 0 [⟨S256x256, ws⟩, ⟨S256x256, wn⟩] concatenates_S256x256_S256x256_S512x256_d0

/-- A first layer in the concatenated spelling. -/
def layerCat128 (x : FVec Ideal S50000x128 .f32) (row col : (⟨S800000, .i32⟩ : BufTy).Contents (Elt Ideal))
    (ws : FVec Ideal S128x256 .f32) (bs : FVec Ideal S256 .f32)
    (wn : FVec Ideal S128x256 .f32) (bn : FVec Ideal S256 .f32) :
    FVec Ideal S50000x256 .f32 :=
  dense (A := 50000) (K := 128) (K2 := 256) (M := 256) x (nei128 x row col) (wcat128 ws wn) (addf (F := Ideal) bs bn)

/-- A second layer in the concatenated spelling. -/
def layerCat256 (x : FVec Ideal S50000x256 .f32) (row col : (⟨S800000, .i32⟩ : BufTy).Contents (Elt Ideal))
    (ws : FVec Ideal S256x256 .f32) (bs : FVec Ideal S256 .f32)
    (wn : FVec Ideal S256x256 .f32) (bn : FVec Ideal S256 .f32) :
    FVec Ideal S50000x256 .f32 :=
  dense (A := 50000) (K := 256) (K2 := 512) (M := 256) x (nei256 x row col) (wcat256 ws wn) (addf (F := Ideal) bs bn)

/-- One stream in the concatenated spelling: two layers along the edge list `e`. -/
def streamCat (x : FVec Ideal S50000x128 .f32) (e : (⟨S2x800000, .i32⟩ : BufTy).Contents (Elt Ideal))
    (ws0 : FVec Ideal S128x256 .f32) (bs0 : FVec Ideal S256 .f32) (wn0 : FVec Ideal S128x256 .f32) (bn0 : FVec Ideal S256 .f32)
    (ws1 : FVec Ideal S256x256 .f32) (bs1 : FVec Ideal S256 .f32) (wn1 : FVec Ideal S256x256 .f32) (bn1 : FVec Ideal S256 .f32) :
    FVec Ideal S50000x256 .f32 :=
  layerCat256 (layerCat128 x (eRow e) (eCol e) ws0 bs0 wn0 bn0) (eRow e) (eCol e) ws1 bs1 wn1 bn1

/-- The two streams' outputs mixed with weights σ(α) and 1 − σ(α). -/
def mix (α : FVec Ideal S_ .f32) (hs ha : FVec Ideal S50000x256 .f32) :
    FVec Ideal S50000x256 .f32 :=
  addf (F := Ideal)
    (mulf (F := Ideal) (broadcastInDim S50000x256 ![] bcast_S_S50000x256
        (Host.divf (F := Ideal) (constant (F := Ideal) S_ .f32 0x3F800000#32) (addf (F := Ideal) (constant (F := Ideal) S_ .f32 0x3F800000#32) (Host.exp (F := Ideal) (Host.negf (F := Ideal) α))))) hs)
    (mulf (F := Ideal) (broadcastInDim S50000x256 ![] bcast_S_S50000x256
        (subf (F := Ideal) (constant (F := Ideal) S_ .f32 0x3F800000#32)
          (Host.divf (F := Ideal) (constant (F := Ideal) S_ .f32 0x3F800000#32) (addf (F := Ideal) (constant (F := Ideal) S_ .f32 0x3F800000#32) (Host.exp (F := Ideal) (Host.negf (F := Ideal) α)))))) ha)

end Cert.Sage

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.LibTileMask.lean ====
import Idealize.ShloMosaic.Lib.ValueIdx
import Idealize.ShloMosaic.Lib.ValueLayout
import Idealize.ShloMosaic.Lib.Pipeline.Value
noncomputable section
namespace Cert.TileMask
open Idealize.ShloMosaic Idealize.ShloMosaic.ValueIdx

/-- A natural number below 2^31, written as a 32-bit word and read back signed, is itself. -/
private theorem toInt_ofNat_small (m : ℕ) (h : m < 2 ^ 31) : (BitVec.ofNat 32 m).toInt = (m : ℤ) := by
  have hm : m % 2 ^ 32 = m := Nat.mod_eq_of_lt (by omega)
  rw [BitVec.toInt_eq_toNat_cond, BitVec.toNat_ofNat, hm]
  split
  · rfl
  · omega

/-- In tile v of width W, the test "global column v·W + j is below n" (a signed 32-bit comparison of v·W + iota against n, all below 2^31) reads 1 exactly when v·W + j < n. -/
theorem col_lt_apply {a b : ℕ} (hio : (⟨2, ![a, b]⟩ : Shape).Iotas .tc 32 [(1 : Fin 2)]) (v W n : ℕ)
    (hv : v * W + b < 2 ^ 31) (hn : n < 2 ^ 31) (p : Fin a) (j : Fin b) :
    cmpi .slt (addi (broadcast ⟨2, ![a, b]⟩ (Scalar.muli (BitVec.ofNat 32 v) (BitVec.ofNat 32 W))) (iota .tc ⟨2, ![a, b]⟩ 32 [1] hio))
        (broadcast ⟨2, ![a, b]⟩ (BitVec.ofNat 32 n)) (ix2 p j)
      = if v * W + j.val < n then 1#1 else 0#1 := by
  have hj := j.isLt
  -- at the index (p, j) the comparison is the signed comparison of the words v·W + (iota at (p, j)) and n
  show IntOp.cmpi .slt (IntOp.addi (Scalar.muli (BitVec.ofNat 32 v) (BitVec.ofNat 32 W))
      (iota .tc ⟨2, ![a, b]⟩ 32 [1] hio (ix2 p j))) (BitVec.ofNat 32 n) = _
  -- the iota along axis 1 reads the column coordinate j
  rw [iota_single_apply]
  show BitVec.ofBool ((BitVec.ofNat 32 v * BitVec.ofNat 32 W + BitVec.ofNat 32 j.val).slt (BitVec.ofNat 32 n)) = _
  -- the word arithmetic is the arithmetic of naturals, and both sides read signed are the naturals themselves
  rw [← BitVec.ofNat_mul, ← BitVec.ofNat_add, BitVec.slt, toInt_ofNat_small _ (by omega), toInt_ofNat_small _ hn]
  by_cases h : v * W + j.val < n
  · have h' : ((v * W + j.val : ℕ) : ℤ) < (n : ℤ) := by exact_mod_cast h
    rw [if_pos h, decide_eq_true h']
    rfl
  · have h' : ¬ ((v * W + j.val : ℕ) : ℤ) < (n : ℤ) := by exact_mod_cast h
    rw [if_neg h, decide_eq_false h']
    rfl

/-- A vector [b] cast to a row [1, b] and spread down the rows to [a, b] reads, at (p, j), the vector's entry j. -/
theorem row_bcast_apply {α : Type} {a b : ℕ} (x : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (j : Fin b) :
    broadcastTo ⟨2, ![a, b]⟩ (shapeCast ⟨2, ![1, b]⟩ x hc) hb (ix2 p j) = x (ix1 j) := by
  rw [broadcastTo_1b_ab_apply, shapeCast_a_1a_apply]

/-- The column test at 1008 rows, tiles of 4096 columns, fewer than 13 tiles and 50257 columns in all. -/
example (v : ℕ) (hv : v < 13) (p : Fin 1008) (j : Fin 4096) :
    cmpi .slt (addi (broadcast ⟨2, ![1008, 4096]⟩ (Scalar.muli (BitVec.ofNat 32 v) 4096#32))
        (iota .tc ⟨2, ![1008, 4096]⟩ 32 [1] (by decide))) (broadcast ⟨2, ![1008, 4096]⟩ 50257#32) (ix2 p j)
      = if v * 4096 + j.val < 50257 then 1#1 else 0#1 :=
  col_lt_apply (by decide) v 4096 50257 (by omega) (by norm_num) p j

end Cert.TileMask
end
-- ==== Proof.KernelBody.lean ====
/-
  What one grid point of a layer's kernel computes, entry by entry.

  The body loads a block of 5000 rows of the features x and of the aggregated neighbour features nei, the whole stacked
  weight matrix and the whole bias vector; lays the two feature blocks side by side, forms one matrix product with
  the stacked weights, adds the bias to every row and takes the maximum with zero. Entry (p, q) of what it stores is
  therefore the concatenated spelling of the layer's entry on the loaded blocks (`denseEntry`).
  The four kernels come in two sizes: feature width 128 (first layer of each stream) and 256 (second layer).
-/
import proofs.«116379_j75033078661165_1_alg».proof.Proof.Gen.KernelIdeal.Skeleton
import proofs.«116379_j75033078661165_1_alg».proof.Proof.LibSageLayer
import proofs.«116379_j75033078661165_1_alg».proof.Proof.LibDenseLayer
import proofs.«116379_j75033078661165_1_alg».proof.Proof.LibTileMask

noncomputable section

namespace Cert.KernelIdeal.Body

open Cert.KernelIdeal Cert.KernelIdeal.Gen Cert.SageLayer
open Idealize.ShloMosaic Idealize.ShloMosaic.ValueIdx

/-! ## The two products' index maps: the left operand is read at (output row, position), the right at (position, output column) -/

theorem d256_l0 (i : S5000x256.Idx) (q : dot_S5000x256_S256x256_S5000x256_1_0_0_1_n_n.contr.Idx) : (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem d256_l1 (i : S5000x256.Idx) (q : dot_S5000x256_S256x256_S5000x256_1_0_0_1_n_n.contr.Idx) : (dot_S5000x256_S256x256_S5000x256_1_0_0_1_n_n.lhsIdx i q 1).val = (q ⟨0, by decide⟩).val :=
  dot_S5000x256_S256x256_S5000x256_1_0_0_1_n_n.lhsIdx_val_of_single rfl i q
theorem d256_r0 (i : S5000x256.Idx) (q : dot_S5000x256_S256x256_S5000x256_1_0_0_1_n_n.contr.Idx) : (dot_S5000x256_S256x256_S5000x256_1_0_0_1_n_n.rhsIdx i q 0).val = (q ⟨0, by decide⟩).val :=
  dot_S5000x256_S256x256_S5000x256_1_0_0_1_n_n.rhsIdx_val_of_single rfl i q
theorem d256_r1 (i : S5000x256.Idx) (q : dot_S5000x256_S256x256_S5000x256_1_0_0_1_n_n.contr.Idx) : (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

theorem d512_l0 (i : S5000x256.Idx) (q : dot_S5000x512_S512x256_S5000x256_1_0_0_1_n_n.contr.Idx) : (dot_S5000x512_S512x256_S5000x256_1_0_0_1_n_n.lhsIdx i q 0).val = (i 0).val := by
  unfold DotDims.lhsIdx
  rw [dif_neg (show ¬(0 : Fin S5000x512.rank) ∈ dot_S5000x512_S512x256_S5000x256_1_0_0_1_n_n.lhsBatch by decide), dif_pos (show (0 : Fin S5000x512.rank) ∈ dot_S5000x512_S512x256_S5000x256_1_0_0_1_n_n.lhsNonContracting by decide)]
  rfl
theorem d512_l1 (i : S5000x256.Idx) (q : dot_S5000x512_S512x256_S5000x256_1_0_0_1_n_n.contr.Idx) : (dot_S5000x512_S512x256_S5000x256_1_0_0_1_n_n.lhsIdx i q 1).val = (q ⟨0, by decide⟩).val :=
  dot_S5000x512_S512x256_S5000x256_1_0_0_1_n_n.lhsIdx_val_of_single rfl i q
theorem d512_r0 (i : S5000x256.Idx) (q : dot_S5000x512_S512x256_S5000x256_1_0_0_1_n_n.contr.Idx) : (dot_S5000x512_S512x256_S5000x256_1_0_0_1_n_n.rhsIdx i q 0).val = (q ⟨0, by decide⟩).val :=
  dot_S5000x512_S512x256_S5000x256_1_0_0_1_n_n.rhsIdx_val_of_single rfl i q
theorem d512_r1 (i : S5000x256.Idx) (q : dot_S5000x512_S512x256_S5000x256_1_0_0_1_n_n.contr.Idx) : (dot_S5000x512_S512x256_S5000x256_1_0_0_1_n_n.rhsIdx i q 1).val = (i 1).val := by
  unfold DotDims.rhsIdx
  rw [dif_neg (show ¬(1 : Fin S512x256.rank) ∈ dot_S5000x512_S512x256_S5000x256_1_0_0_1_n_n.rhsBatch by decide), dif_pos (show (1 : Fin S512x256.rank) ∈ dot_S5000x512_S512x256_S5000x256_1_0_0_1_n_n.rhsNonContracting by decide)]
  rfl

/-! ## The stored value at an entry -/

/-- Entry (p, q) of the body's result for feature width 128: the row p of the two loaded feature blocks side by side
    against column q of the loaded weights, plus the bias entry, and the maximum with zero. The narrowing to bf16 is
    the identity on extended reals, and the product into a zero accumulator is the plain sum. -/
theorem pay128_apply (v0 v1 : Vec Ideal S5000x128 .f32) (w : Vec Ideal S256x256 .f32) (b : Vec Ideal S256 .f32) (p : Fin 5000) (q : Fin 256) :
    k0_pay1 (F := Ideal) v0 v1 w b (ix2 p q) = denseEntry v0 v1 w b p q := by
  unfold k0_pay1 denseEntry
  -- the casts of a block to its own shape are the identity
  simp only [shapeCast_self]
  rw [shapeCast_self v1 shapeCasts_S5000x128_S5000x128]
  -- the maximum, the sum and the splat constant are entrywise; the zero word is 0; the bias row is spread down the rows
  rw [maximumf_apply, addf_apply, broadcast_apply, Ideal.ofBits_def, Ideal.ofBits_zero_f32,
    Cert.TileMask.row_bcast_apply b shapeCasts_S256_S1x256 broadcasts_S1x256_S5000x256 p q]
  refine congrArg (fun s => max (s + b (ix1 q)) 0) ?_
  -- the product is the sum over the doubled axis, and the side-by-side block's row is the side-by-side row
  refine (Cert.DenseLayer.matmul_rows_cols dot_S5000x256_S256x256_S5000x256_1_0_0_1_n_n rfl rfl d256_l0 d256_l1 d256_r0 d256_r1 none _ _ p q).trans ?_
  refine Finset.sum_congr rfl fun k _ => ?_
  refine congrArg (· * w (ix2 k q)) ?_
  exact cat_cols_eq_catRow (K := 128) (K2 := 256) rfl v0 v1 concatenates_S5000x128_S5000x128_S5000x256_d1 p k

/-- Entry (p, q) of the body's result for feature width 256: the row p of the two loaded feature blocks side by side
    against column q of the loaded weights, plus the bias entry, and the maximum with zero. The narrowing to bf16 is
    the identity on extended reals, and the product into a zero accumulator is the plain sum. -/
theorem pay256_apply (v0 v1 : Vec Ideal S5000x256 .f32) (w : Vec Ideal S512x256 .f32) (b : Vec Ideal S256 .f32) (p : Fin 5000) (q : Fin 256) :
    k1_pay1 (F := Ideal) v0 v1 w b (ix2 p q) = denseEntry v0 v1 w b p q := by
  unfold k1_pay1 denseEntry
  -- the casts of a block to its own shape are the identity
  simp only [shapeCast_self]
  rw [shapeCast_self v0 shapeCasts_S5000x256_S5000x256, shapeCast_self v1 shapeCasts_S5000x256_S5000x256]
  -- the maximum, the sum and the splat constant are entrywise; the zero word is 0; the bias row is spread down the rows
  rw [maximumf_apply, addf_apply, broadcast_apply, Ideal.ofBits_def, Ideal.ofBits_zero_f32,
    Cert.TileMask.row_bcast_apply b shapeCasts_S256_S1x256 broadcasts_S1x256_S5000x256 p q]
  refine congrArg (fun s => max (s + b (ix1 q)) 0) ?_
  -- the product is the sum over the doubled axis, and the side-by-side block's row is the side-by-side row
  refine (Cert.DenseLayer.matmul_rows_cols dot_S5000x512_S512x256_S5000x256_1_0_0_1_n_n rfl rfl d512_l0 d512_l1 d512_r0 d512_r1 none _ _ p q).trans ?_
  refine Finset.sum_congr rfl fun k _ => ?_
  refine congrArg (· * w (ix2 k q)) ?_
  exact cat_cols_eq_catRow (K := 256) (K2 := 512) rfl v0 v1 concatenates_S5000x256_S5000x256_S5000x512_d1 p k

/-- The third and fourth kernels are the first and second again (the second stream's two layers). -/
theorem pay2_eq : @k2_pay1 = @k0_pay1 := rfl
theorem pay3_eq : @k3_pay1 = @k1_pay1 := rfl

end Cert.KernelIdeal.Body

end
-- ==== Proof.KernelRegion.lean ====
/-
  Each kernel region leaves in its output array one layer of the network, applied to the arrays it finds.

  A region runs its kernel at ten grid points. Point t loads rows 5000·t … 5000·t + 4999 of the features and of the
  aggregated neighbour features, the whole stacked weights and the whole bias, and writes back the same rows of the
  output. Entry (p, q) of what it stores is the layer's entry on the loaded blocks; a block's row p is row 5000·t + p
  of the array it is cut from, and the weights and the bias are loaded whole, so the stored block is block t of the
  layer of the whole arrays. The ten blocks tile the 50000 rows, hence the output array ends as that layer.
-/
import proofs.«116379_j75033078661165_1_alg».proof.Proof.Gen.KernelIdeal.Frame
import proofs.«116379_j75033078661165_1_alg».proof.Proof.KernelBody
import Idealize.ShloMosaic.Lib.Pipeline.Value

set_option maxRecDepth 16384

noncomputable section

namespace Cert.KernelIdeal.Region

open Cert.KernelIdeal Cert.KernelIdeal.Gen Cert.KernelIdeal.Body Cert.SageLayer
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 0: feature width 128 -/

/-- The block index maps over the grid: the two feature windows and the output window take block row `t`, the weight
    and bias windows always their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- At one grid point, over any loaded blocks: if the blocks are the rows and columns of whole arrays that entry `i`
    of the layer depends on, the stored entry `j` is the layer's entry `i`. -/
theorem point_eq0 (x0 x1 : Vec Ideal S5000x128 .f32) (w : Vec Ideal S256x256 .f32) (b : Vec Ideal S256 .f32)
    (X NEI : S50000x128.Idx → EReal) (W : S256x256.Idx → EReal) (B : S256.Idx → EReal) (j : S5000x256.Idx) (i : S50000x256.Idx)
    (hx : ∀ k : Fin 128, x0 (ix2 (j 0) k) = X (ix2 (i 0) k)) (hn : ∀ k : Fin 128, x1 (ix2 (j 0) k) = NEI (ix2 (i 0) k))
    (hw : ∀ k : Fin 256, w (ix2 k (j 1)) = W (ix2 k (i 1))) (hb : b (ix1 (j 1)) = B (ix1 (i 1))) :
    k0_pay1 (F := Ideal) x0 x1 w b j = dense (A := 50000) (K := 128) (K2 := 256) (M := 256) X NEI W B i := by
  show k0_pay1 (F := Ideal) x0 x1 w b j = _
  refine (congrArg (k0_pay1 (F := Ideal) x0 x1 w b) (eq_ix2 j)).trans ((pay128_apply x0 x1 w b (j 0) (j 1)).trans ?_)
  exact denseEntry_congr (A := 5000) (A' := 50000) (K := 128) (K2 := 256) (M := 256) (M' := 256) x0 x1 w b X NEI W B (j 0) (j 1) (i 0) (i 1) hx hn hw hb

/-- What point `t` writes back is block `t` of the layer of the arrays the region finds. -/
theorem flushed0_eq (c : Dev nD) (t : Fin cfg0.N) :
    (dat0 (F := Ideal) V c).flushed 4 t = ((cfg0.win 4).blk t).view.read (Elt Ideal)
      (dense (A := 50000) (K := 128) (K2 := 256) (M := 256) (V c main_arg0) (V c main_v25) (V c main_v26) (V c main_v27)) := by
  show (cfg0.win 4).cut (grid0.coords t) ((dat0 (F := Ideal) V c).after 4 t) = _
  rw [after0_4]
  unfold out0_4
  rw [View.canon_unit_zero hz2]
  simp only [View.ld_unit_zero (S := S5000x128) hz2, View.ld_unit_zero (S := S256x256) hz2, View.ld_unit_zero (S := S256) hz1]
  obtain ⟨e0, e1, e2, e3, e4, e5, e6, e7, e8⟩ := idx_facts0 t
  funext j
  have hj0 : (j 0).val < 5000 := (j 0).isLt
  have hj1 : (j 1).val < 256 := (j 1).isLt
  refine point_eq0 _ _ _ _ _ _ _ _ j _ ?_ ?_ ?_ ?_
  · intro k
    show V c main_arg0 (((cfg0.win 0).blk t).view.emb (ix2 (j 0) k)) = V c main_arg0 (ix2 ((((cfg0.win 4).blk t).view.emb j) 0) k)
    refine congrArg _ (funext fun a => Fin.ext ?_)
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * k.val = k.val; omega
  · intro k
    show V c main_v25 (((cfg0.win 1).blk t).view.emb (ix2 (j 0) k)) = V c main_v25 (ix2 ((((cfg0.win 4).blk t).view.emb j) 0) k)
    refine congrArg _ (funext fun a => Fin.ext ?_)
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 128 + 1 * k.val = k.val; omega
  · intro k
    show V c main_v26 (((cfg0.win 2).blk t).view.emb (ix2 k (j 1))) = V c main_v26 (ix2 k ((((cfg0.win 4).blk t).view.emb j) 1))
    refine congrArg _ (funext fun a => Fin.ext ?_)
    match a with
    | ⟨0, _⟩ => show win0_2.index t (0 : Fin 2) * 256 + 1 * k.val = k.val; omega
    | ⟨1, _⟩ => show win0_2.index t (1 : Fin 2) * 256 + 1 * (j 1).val = win0_4.index t (1 : Fin 2) * 256 + 1 * (j 1).val; omega
  · show V c main_v27 (((cfg0.win 3).blk t).view.emb (ix1 (j 1))) = V c main_v27 (ix1 ((((cfg0.win 4).blk t).view.emb j) 1))
    refine congrArg _ (funext fun a => Fin.ext ?_)
    match a with
    | ⟨0, _⟩ => show win0_3.index t (0 : Fin 1) * 256 + 1 * (j 1).val = win0_4.index t (1 : Fin 2) * 256 + 1 * (j 1).val; omega

/-- An index of the output array is in point `t`'s block iff each coordinate is in the block's range on its axis. -/
theorem mem_blk0 (t : Fin cfg0.N) (i : S50000x256.Idx) :
    i ∈ ((cfg0.win 4).blk t).view.set ↔ ∀ a : Fin 2, win0_4.index t a * S5000x256.size a ≤ (i a).val ∧ (i a).val < win0_4.index t a * S5000x256.size a + S5000x256.size a := by
  show i ∈ ((View.whole main_v28).slice (win0_4.rect t)).set ↔ _
  rw [View.set_slice_whole, Rect.mem_set_unit]
  exact Iff.rfl

/-- Every row of the output lies in the block of the point numbered by the row divided by 5000. -/
theorem cover0 (i : S50000x256.Idx) : ∃ t : Fin cfg0.N, (cfg0.win 4).flush t = true ∧ i ∈ ((cfg0.win 4).blk t).view.set := by
  have hi0 : (i 0).val < 50000 := (i 0).isLt
  have hi1 : (i 1).val < 256 := (i 1).isLt
  have hN : grid0.N = 10 := N_0
  have ht : (i 0).val / 5000 < grid0.N := by rw [hN]; omega
  obtain ⟨-, -, -, -, -, -, -, e7, e8⟩ := idx_facts0 ⟨(i 0).val / 5000, ht⟩
  refine ⟨⟨(i 0).val / 5000, ht⟩, flush0_4 _, ?_⟩
  rw [mem_blk0]
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    rw [e7]
    show (i 0).val / 5000 * 5000 ≤ (i 0).val ∧ (i 0).val < (i 0).val / 5000 * 5000 + 5000
    omega
  | ⟨1, _⟩ =>
    show win0_4.index ⟨(i 0).val / 5000, ht⟩ (1 : Fin 2) * 256 ≤ (i 1).val ∧ (i 1).val < win0_4.index ⟨(i 0).val / 5000, ht⟩ (1 : Fin 2) * 256 + 256
    rw [e8]
    omega

/-- THE OUTPUT ARRAY after the region: the layer of the four arrays the region finds. -/
theorem final0 (c : Dev nD) : (dat0 (F := Ideal) V c).arrAt 4 cfg0.N
    = dense (A := 50000) (K := 128) (K2 := 256) (M := 256) (V c main_arg0) (V c main_v25) (V c main_v26) (V c main_v27) :=
  (dat0 (F := Ideal) V c).arrAt_eq_of_cover 4 _ (fun t _ => flushed0_eq V c t) cover0

/-! ## Region 1: feature width 256 -/

/-- The block index maps over the grid: the two feature windows and the output window take block row `t`, the weight
    and bias windows always their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- At one grid point, over any loaded blocks: if the blocks are the rows and columns of whole arrays that entry `i`
    of the layer depends on, the stored entry `j` is the layer's entry `i`. -/
theorem point_eq1 (x0 x1 : Vec Ideal S5000x256 .f32) (w : Vec Ideal S512x256 .f32) (b : Vec Ideal S256 .f32)
    (X NEI : S50000x256.Idx → EReal) (W : S512x256.Idx → EReal) (B : S256.Idx → EReal) (j : S5000x256.Idx) (i : S50000x256.Idx)
    (hx : ∀ k : Fin 256, x0 (ix2 (j 0) k) = X (ix2 (i 0) k)) (hn : ∀ k : Fin 256, x1 (ix2 (j 0) k) = NEI (ix2 (i 0) k))
    (hw : ∀ k : Fin 512, w (ix2 k (j 1)) = W (ix2 k (i 1))) (hb : b (ix1 (j 1)) = B (ix1 (i 1))) :
    k1_pay1 (F := Ideal) x0 x1 w b j = dense (A := 50000) (K := 256) (K2 := 512) (M := 256) X NEI W B i := by
  show k1_pay1 (F := Ideal) x0 x1 w b j = _
  refine (congrArg (k1_pay1 (F := Ideal) x0 x1 w b) (eq_ix2 j)).trans ((pay256_apply x0 x1 w b (j 0) (j 1)).trans ?_)
  exact denseEntry_congr (A := 5000) (A' := 50000) (K := 256) (K2 := 512) (M := 256) (M' := 256) x0 x1 w b X NEI W B (j 0) (j 1) (i 0) (i 1) hx hn hw hb

/-- What point `t` writes back is block `t` of the layer of the arrays the region finds. -/
theorem flushed1_eq (c : Dev nD) (t : Fin cfg1.N) :
    (dat1 (F := Ideal) V c).flushed 4 t = ((cfg1.win 4).blk t).view.read (Elt Ideal)
      (dense (A := 50000) (K := 256) (K2 := 512) (M := 256) (V c main_v28) (V c main_v46) (V c main_v47) (V c main_v48)) := by
  show (cfg1.win 4).cut (grid1.coords t) ((dat1 (F := Ideal) V c).after 4 t) = _
  rw [after1_4]
  unfold out1_4
  rw [View.canon_unit_zero hz2]
  simp only [View.ld_unit_zero (S := S5000x256) hz2, View.ld_unit_zero (S := S512x256) hz2, View.ld_unit_zero (S := S256) hz1]
  obtain ⟨e0, e1, e2, e3, e4, e5, e6, e7, e8⟩ := idx_facts1 t
  funext j
  have hj0 : (j 0).val < 5000 := (j 0).isLt
  have hj1 : (j 1).val < 256 := (j 1).isLt
  refine point_eq1 _ _ _ _ _ _ _ _ j _ ?_ ?_ ?_ ?_
  · intro k
    show V c main_v28 (((cfg1.win 0).blk t).view.emb (ix2 (j 0) k)) = V c main_v28 (ix2 ((((cfg1.win 4).blk t).view.emb j) 0) k)
    refine congrArg _ (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 256 + 1 * k.val = k.val; omega
  · intro k
    show V c main_v46 (((cfg1.win 1).blk t).view.emb (ix2 (j 0) k)) = V c main_v46 (ix2 ((((cfg1.win 4).blk t).view.emb j) 0) k)
    refine congrArg _ (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 256 + 1 * k.val = k.val; omega
  · intro k
    show V c main_v47 (((cfg1.win 2).blk t).view.emb (ix2 k (j 1))) = V c main_v47 (ix2 k ((((cfg1.win 4).blk t).view.emb j) 1))
    refine congrArg _ (funext fun a => Fin.ext ?_)
    match a with
    | ⟨0, _⟩ => show win1_2.index t (0 : Fin 2) * 512 + 1 * k.val = k.val; omega
    | ⟨1, _⟩ => show win1_2.index t (1 : Fin 2) * 256 + 1 * (j 1).val = win1_4.index t (1 : Fin 2) * 256 + 1 * (j 1).val; omega
  · show V c main_v48 (((cfg1.win 3).blk t).view.emb (ix1 (j 1))) = V c main_v48 (ix1 ((((cfg1.win 4).blk t).view.emb j) 1))
    refine congrArg _ (funext fun a => Fin.ext ?_)
    match a with
    | ⟨0, _⟩ => show win1_3.index t (0 : Fin 1) * 256 + 1 * (j 1).val = win1_4.index t (1 : Fin 2) * 256 + 1 * (j 1).val; omega

/-- An index of the output array is in point `t`'s block iff each coordinate is in the block's range on its axis. -/
theorem mem_blk1 (t : Fin cfg1.N) (i : S50000x256.Idx) :
    i ∈ ((cfg1.win 4).blk t).view.set ↔ ∀ a : Fin 2, win1_4.index t a * S5000x256.size a ≤ (i a).val ∧ (i a).val < win1_4.index t a * S5000x256.size a + S5000x256.size a := by
  show i ∈ ((View.whole main_v49).slice (win1_4.rect t)).set ↔ _
  rw [View.set_slice_whole, Rect.mem_set_unit]
  exact Iff.rfl

/-- Every row of the output lies in the block of the point numbered by the row divided by 5000. -/
theorem cover1 (i : S50000x256.Idx) : ∃ t : Fin cfg1.N, (cfg1.win 4).flush t = true ∧ i ∈ ((cfg1.win 4).blk t).view.set := by
  have hi0 : (i 0).val < 50000 := (i 0).isLt
  have hi1 : (i 1).val < 256 := (i 1).isLt
  have hN : grid1.N = 10 := N_1
  have ht : (i 0).val / 5000 < grid1.N := by rw [hN]; omega
  obtain ⟨-, -, -, -, -, -, -, e7, e8⟩ := idx_facts1 ⟨(i 0).val / 5000, ht⟩
  refine ⟨⟨(i 0).val / 5000, ht⟩, flush1_4 _, ?_⟩
  rw [mem_blk1]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e7]
    show (i 0).val / 5000 * 5000 ≤ (i 0).val ∧ (i 0).val < (i 0).val / 5000 * 5000 + 5000
    omega
  | ⟨1, _⟩ =>
    show win1_4.index ⟨(i 0).val / 5000, ht⟩ (1 : Fin 2) * 256 ≤ (i 1).val ∧ (i 1).val < win1_4.index ⟨(i 0).val / 5000, ht⟩ (1 : Fin 2) * 256 + 256
    rw [e8]
    omega

/-- THE OUTPUT ARRAY after the region: the layer of the four arrays the region finds. -/
theorem final1 (c : Dev nD) : (dat1 (F := Ideal) V c).arrAt 4 cfg1.N
    = dense (A := 50000) (K := 256) (K2 := 512) (M := 256) (V c main_v28) (V c main_v46) (V c main_v47) (V c main_v48) :=
  (dat1 (F := Ideal) V c).arrAt_eq_of_cover 4 _ (fun t _ => flushed1_eq V c t) cover1

/-! ## Region 2: feature width 128 -/

/-- The block index maps over the grid: the two feature windows and the output window take block row `t`, the weight
    and bias windows always their one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- At one grid point, over any loaded blocks: if the blocks are the rows and columns of whole arrays that entry `i`
    of the layer depends on, the stored entry `j` is the layer's entry `i`. -/
theorem point_eq2 (x0 x1 : Vec Ideal S5000x128 .f32) (w : Vec Ideal S256x256 .f32) (b : Vec Ideal S256 .f32)
    (X NEI : S50000x128.Idx → EReal) (W : S256x256.Idx → EReal) (B : S256.Idx → EReal) (j : S5000x256.Idx) (i : S50000x256.Idx)
    (hx : ∀ k : Fin 128, x0 (ix2 (j 0) k) = X (ix2 (i 0) k)) (hn : ∀ k : Fin 128, x1 (ix2 (j 0) k) = NEI (ix2 (i 0) k))
    (hw : ∀ k : Fin 256, w (ix2 k (j 1)) = W (ix2 k (i 1))) (hb : b (ix1 (j 1)) = B (ix1 (i 1))) :
    k2_pay1 (F := Ideal) x0 x1 w b j = dense (A := 50000) (K := 128) (K2 := 256) (M := 256) X NEI W B i := by
  show k0_pay1 (F := Ideal) x0 x1 w b j = _
  refine (congrArg (k0_pay1 (F := Ideal) x0 x1 w b) (eq_ix2 j)).trans ((pay128_apply x0 x1 w b (j 0) (j 1)).trans ?_)
  exact denseEntry_congr (A := 5000) (A' := 50000) (K := 128) (K2 := 256) (M := 256) (M' := 256) x0 x1 w b X NEI W B (j 0) (j 1) (i 0) (i 1) hx hn hw hb

/-- What point `t` writes back is block `t` of the layer of the arrays the region finds. -/
theorem flushed2_eq (c : Dev nD) (t : Fin cfg2.N) :
    (dat2 (F := Ideal) V c).flushed 4 t = ((cfg2.win 4).blk t).view.read (Elt Ideal)
      (dense (A := 50000) (K := 128) (K2 := 256) (M := 256) (V c main_arg0) (V c main_v67) (V c main_v68) (V c main_v69)) := by
  show (cfg2.win 4).cut (grid2.coords t) ((dat2 (F := Ideal) V c).after 4 t) = _
  rw [after2_4]
  unfold out2_4
  rw [View.canon_unit_zero hz2]
  simp only [View.ld_unit_zero (S := S5000x128) hz2, View.ld_unit_zero (S := S256x256) hz2, View.ld_unit_zero (S := S256) hz1]
  obtain ⟨e0, e1, e2, e3, e4, e5, e6, e7, e8⟩ := idx_facts2 t
  funext j
  have hj0 : (j 0).val < 5000 := (j 0).isLt
  have hj1 : (j 1).val < 256 := (j 1).isLt
  refine point_eq2 _ _ _ _ _ _ _ _ j _ ?_ ?_ ?_ ?_
  · intro k
    show V c main_arg0 (((cfg2.win 0).blk t).view.emb (ix2 (j 0) k)) = V c main_arg0 (ix2 ((((cfg2.win 4).blk t).view.emb j) 0) k)
    refine congrArg _ (funext fun a => Fin.ext ?_)
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * k.val = k.val; omega
  · intro k
    show V c main_v67 (((cfg2.win 1).blk t).view.emb (ix2 (j 0) k)) = V c main_v67 (ix2 ((((cfg2.win 4).blk t).view.emb j) 0) k)
    refine congrArg _ (funext fun a => Fin.ext ?_)
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 128 + 1 * k.val = k.val; omega
  · intro k
    show V c main_v68 (((cfg2.win 2).blk t).view.emb (ix2 k (j 1))) = V c main_v68 (ix2 k ((((cfg2.win 4).blk t).view.emb j) 1))
    refine congrArg _ (funext fun a => Fin.ext ?_)
    match a with
    | ⟨0, _⟩ => show win2_2.index t (0 : Fin 2) * 256 + 1 * k.val = k.val; omega
    | ⟨1, _⟩ => show win2_2.index t (1 : Fin 2) * 256 + 1 * (j 1).val = win2_4.index t (1 : Fin 2) * 256 + 1 * (j 1).val; omega
  · show V c main_v69 (((cfg2.win 3).blk t).view.emb (ix1 (j 1))) = V c main_v69 (ix1 ((((cfg2.win 4).blk t).view.emb j) 1))
    refine congrArg _ (funext fun a => Fin.ext ?_)
    match a with
    | ⟨0, _⟩ => show win2_3.index t (0 : Fin 1) * 256 + 1 * (j 1).val = win2_4.index t (1 : Fin 2) * 256 + 1 * (j 1).val; omega

/-- An index of the output array is in point `t`'s block iff each coordinate is in the block's range on its axis. -/
theorem mem_blk2 (t : Fin cfg2.N) (i : S50000x256.Idx) :
    i ∈ ((cfg2.win 4).blk t).view.set ↔ ∀ a : Fin 2, win2_4.index t a * S5000x256.size a ≤ (i a).val ∧ (i a).val < win2_4.index t a * S5000x256.size a + S5000x256.size a := by
  show i ∈ ((View.whole main_v70).slice (win2_4.rect t)).set ↔ _
  rw [View.set_slice_whole, Rect.mem_set_unit]
  exact Iff.rfl

/-- Every row of the output lies in the block of the point numbered by the row divided by 5000. -/
theorem cover2 (i : S50000x256.Idx) : ∃ t : Fin cfg2.N, (cfg2.win 4).flush t = true ∧ i ∈ ((cfg2.win 4).blk t).view.set := by
  have hi0 : (i 0).val < 50000 := (i 0).isLt
  have hi1 : (i 1).val < 256 := (i 1).isLt
  have hN : grid2.N = 10 := N_2
  have ht : (i 0).val / 5000 < grid2.N := by rw [hN]; omega
  obtain ⟨-, -, -, -, -, -, -, e7, e8⟩ := idx_facts2 ⟨(i 0).val / 5000, ht⟩
  refine ⟨⟨(i 0).val / 5000, ht⟩, flush2_4 _, ?_⟩
  rw [mem_blk2]
  intro a
  match a with
  | ⟨0, _⟩ =>
    show win2_4.index ⟨(i 0).val / 5000, ht⟩ (0 : Fin 2) * 5000 ≤ (i 0).val ∧ (i 0).val < win2_4.index ⟨(i 0).val / 5000, ht⟩ (0 : Fin 2) * 5000 + 5000
    rw [e7]
    show (i 0).val / 5000 * 5000 ≤ (i 0).val ∧ (i 0).val < (i 0).val / 5000 * 5000 + 5000
    omega
  | ⟨1, _⟩ =>
    show win2_4.index ⟨(i 0).val / 5000, ht⟩ (1 : Fin 2) * 256 ≤ (i 1).val ∧ (i 1).val < win2_4.index ⟨(i 0).val / 5000, ht⟩ (1 : Fin 2) * 256 + 256
    rw [e8]
    omega

/-- THE OUTPUT ARRAY after the region: the layer of the four arrays the region finds. -/
theorem final2 (c : Dev nD) : (dat2 (F := Ideal) V c).arrAt 4 cfg2.N
    = dense (A := 50000) (K := 128) (K2 := 256) (M := 256) (V c main_arg0) (V c main_v67) (V c main_v68) (V c main_v69) :=
  (dat2 (F := Ideal) V c).arrAt_eq_of_cover 4 _ (fun t _ => flushed2_eq V c t) cover2

/-! ## Region 3: feature width 256 -/

/-- The block index maps over the grid: the two feature windows and the output window take block row `t`, the weight
    and bias windows always their one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- At one grid point, over any loaded blocks: if the blocks are the rows and columns of whole arrays that entry `i`
    of the layer depends on, the stored entry `j` is the layer's entry `i`. -/
theorem point_eq3 (x0 x1 : Vec Ideal S5000x256 .f32) (w : Vec Ideal S512x256 .f32) (b : Vec Ideal S256 .f32)
    (X NEI : S50000x256.Idx → EReal) (W : S512x256.Idx → EReal) (B : S256.Idx → EReal) (j : S5000x256.Idx) (i : S50000x256.Idx)
    (hx : ∀ k : Fin 256, x0 (ix2 (j 0) k) = X (ix2 (i 0) k)) (hn : ∀ k : Fin 256, x1 (ix2 (j 0) k) = NEI (ix2 (i 0) k))
    (hw : ∀ k : Fin 512, w (ix2 k (j 1)) = W (ix2 k (i 1))) (hb : b (ix1 (j 1)) = B (ix1 (i 1))) :
    k3_pay1 (F := Ideal) x0 x1 w b j = dense (A := 50000) (K := 256) (K2 := 512) (M := 256) X NEI W B i := by
  show k1_pay1 (F := Ideal) x0 x1 w b j = _
  refine (congrArg (k1_pay1 (F := Ideal) x0 x1 w b) (eq_ix2 j)).trans ((pay256_apply x0 x1 w b (j 0) (j 1)).trans ?_)
  exact denseEntry_congr (A := 5000) (A' := 50000) (K := 256) (K2 := 512) (M := 256) (M' := 256) x0 x1 w b X NEI W B (j 0) (j 1) (i 0) (i 1) hx hn hw hb

/-- What point `t` writes back is block `t` of the layer of the arrays the region finds. -/
theorem flushed3_eq (c : Dev nD) (t : Fin cfg3.N) :
    (dat3 (F := Ideal) V c).flushed 4 t = ((cfg3.win 4).blk t).view.read (Elt Ideal)
      (dense (A := 50000) (K := 256) (K2 := 512) (M := 256) (V c main_v70) (V c main_v88) (V c main_v89) (V c main_v90)) := by
  show (cfg3.win 4).cut (grid3.coords t) ((dat3 (F := Ideal) V c).after 4 t) = _
  rw [after3_4]
  unfold out3_4
  rw [View.canon_unit_zero hz2]
  simp only [View.ld_unit_zero (S := S5000x256) hz2, View.ld_unit_zero (S := S512x256) hz2, View.ld_unit_zero (S := S256) hz1]
  obtain ⟨e0, e1, e2, e3, e4, e5, e6, e7, e8⟩ := idx_facts3 t
  funext j
  have hj0 : (j 0).val < 5000 := (j 0).isLt
  have hj1 : (j 1).val < 256 := (j 1).isLt
  refine point_eq3 _ _ _ _ _ _ _ _ j _ ?_ ?_ ?_ ?_
  · intro k
    show V c main_v70 (((cfg3.win 0).blk t).view.emb (ix2 (j 0) k)) = V c main_v70 (ix2 ((((cfg3.win 4).blk t).view.emb j) 0) k)
    refine congrArg _ (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 256 + 1 * k.val = k.val; omega
  · intro k
    show V c main_v88 (((cfg3.win 1).blk t).view.emb (ix2 (j 0) k)) = V c main_v88 (ix2 ((((cfg3.win 4).blk t).view.emb j) 0) k)
    refine congrArg _ (funext fun a => Fin.ext ?_)
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 256 + 1 * k.val = k.val; omega
  · intro k
    show V c main_v89 (((cfg3.win 2).blk t).view.emb (ix2 k (j 1))) = V c main_v89 (ix2 k ((((cfg3.win 4).blk t).view.emb j) 1))
    refine congrArg _ (funext fun a => Fin.ext ?_)
    match a with
    | ⟨0, _⟩ => show win3_2.index t (0 : Fin 2) * 512 + 1 * k.val = k.val; omega
    | ⟨1, _⟩ => show win3_2.index t (1 : Fin 2) * 256 + 1 * (j 1).val = win3_4.index t (1 : Fin 2) * 256 + 1 * (j 1).val; omega
  · show V c main_v90 (((cfg3.win 3).blk t).view.emb (ix1 (j 1))) = V c main_v90 (ix1 ((((cfg3.win 4).blk t).view.emb j) 1))
    refine congrArg _ (funext fun a => Fin.ext ?_)
    match a with
    | ⟨0, _⟩ => show win3_3.index t (0 : Fin 1) * 256 + 1 * (j 1).val = win3_4.index t (1 : Fin 2) * 256 + 1 * (j 1).val; omega

/-- An index of the output array is in point `t`'s block iff each coordinate is in the block's range on its axis. -/
theorem mem_blk3 (t : Fin cfg3.N) (i : S50000x256.Idx) :
    i ∈ ((cfg3.win 4).blk t).view.set ↔ ∀ a : Fin 2, win3_4.index t a * S5000x256.size a ≤ (i a).val ∧ (i a).val < win3_4.index t a * S5000x256.size a + S5000x256.size a := by
  show i ∈ ((View.whole main_v91).slice (win3_4.rect t)).set ↔ _
  rw [View.set_slice_whole, Rect.mem_set_unit]
  exact Iff.rfl

/-- Every row of the output lies in the block of the point numbered by the row divided by 5000. -/
theorem cover3 (i : S50000x256.Idx) : ∃ t : Fin cfg3.N, (cfg3.win 4).flush t = true ∧ i ∈ ((cfg3.win 4).blk t).view.set := by
  have hi0 : (i 0).val < 50000 := (i 0).isLt
  have hi1 : (i 1).val < 256 := (i 1).isLt
  have hN : grid3.N = 10 := N_3
  have ht : (i 0).val / 5000 < grid3.N := by rw [hN]; omega
  obtain ⟨-, -, -, -, -, -, -, e7, e8⟩ := idx_facts3 ⟨(i 0).val / 5000, ht⟩
  refine ⟨⟨(i 0).val / 5000, ht⟩, flush3_4 _, ?_⟩
  rw [mem_blk3]
  intro a
  match a with
  | ⟨0, _⟩ =>
    show win3_4.index ⟨(i 0).val / 5000, ht⟩ (0 : Fin 2) * 5000 ≤ (i 0).val ∧ (i 0).val < win3_4.index ⟨(i 0).val / 5000, ht⟩ (0 : Fin 2) * 5000 + 5000
    rw [e7]
    show (i 0).val / 5000 * 5000 ≤ (i 0).val ∧ (i 0).val < (i 0).val / 5000 * 5000 + 5000
    omega
  | ⟨1, _⟩ =>
    show win3_4.index ⟨(i 0).val / 5000, ht⟩ (1 : Fin 2) * 256 ≤ (i 1).val ∧ (i 1).val < win3_4.index ⟨(i 0).val / 5000, ht⟩ (1 : Fin 2) * 256 + 256
    rw [e8]
    omega

/-- THE OUTPUT ARRAY after the region: the layer of the four arrays the region finds. -/
theorem final3 (c : Dev nD) : (dat3 (F := Ideal) V c).arrAt 4 cfg3.N
    = dense (A := 50000) (K := 256) (K2 := 512) (M := 256) (V c main_v70) (V c main_v88) (V c main_v89) (V c main_v90) :=
  (dat3 (F := Ideal) V c).arrAt_eq_of_cover 4 _ (fun t _ => flushed3_eq V c t) cover3

end Cert.KernelIdeal.Region

end
-- ==== Proof.KernelFold1.lean ====
/-
  The contents of the buffers at each boundary of @main, read back to the launch memory.

  At each boundary, each buffer that a later segment still reads is named as a function of the argument arrays: an
  argument is itself (nothing writes it); a buffer a stretch of host operations computes is its operations' term of
  the earlier buffers; a region's output array is the layer of the region's four input arrays; every other buffer
  is what it was at the boundary before.
  This file: the first stretch of host operations and the first region (boundaries 1 and 2).
-/
import proofs.«116379_j75033078661165_1_alg».proof.Proof.Gen.KernelIdeal.Frame
import proofs.«116379_j75033078661165_1_alg».proof.Proof.SageNet
import proofs.«116379_j75033078661165_1_alg».proof.Proof.KernelRegion
import Idealize.ShloMosaic.Lib.StableHlo.Run

set_option maxRecDepth 16384

noncomputable section

namespace Cert.KernelIdeal.Fold

open Cert.KernelIdeal Cert.KernelIdeal.Gen Cert.Sage Cert.SageLayer
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

/-- A stretch of host operations leaves a buffer none of its operations writes as it found it. -/
macro "host_keep" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## Boundary 1: after host stretch 0 -/

theorem W1_arg0 (c : Dev nD) : W1 m ρ c (Proc.devRef .tc main_arg0) = (m ((c.tc : Thread nD τ).loc main_arg0)) := by
  show StableHlo.after hostOps0 (W0 m ρ c) (Proc.devRef .tc main_arg0) = W0 m ρ c (Proc.devRef .tc main_arg0)
  host_keep hostOps0

theorem W1_arg1 (c : Dev nD) : W1 m ρ c (Proc.devRef .tc main_arg1) = (m ((c.tc : Thread nD τ).loc main_arg1)) := by
  show StableHlo.after hostOps0 (W0 m ρ c) (Proc.devRef .tc main_arg1) = W0 m ρ c (Proc.devRef .tc main_arg1)
  host_keep hostOps0

theorem W1_arg6 (c : Dev nD) : W1 m ρ c (Proc.devRef .tc main_arg6) = (m ((c.tc : Thread nD τ).loc main_arg6)) := by
  show StableHlo.after hostOps0 (W0 m ρ c) (Proc.devRef .tc main_arg6) = W0 m ρ c (Proc.devRef .tc main_arg6)
  host_keep hostOps0

theorem W1_arg7 (c : Dev nD) : W1 m ρ c (Proc.devRef .tc main_arg7) = (m ((c.tc : Thread nD τ).loc main_arg7)) := by
  show StableHlo.after hostOps0 (W0 m ρ c) (Proc.devRef .tc main_arg7) = W0 m ρ c (Proc.devRef .tc main_arg7)
  host_keep hostOps0

theorem W1_arg8 (c : Dev nD) : W1 m ρ c (Proc.devRef .tc main_arg8) = (m ((c.tc : Thread nD τ).loc main_arg8)) := by
  show StableHlo.after hostOps0 (W0 m ρ c) (Proc.devRef .tc main_arg8) = W0 m ρ c (Proc.devRef .tc main_arg8)
  host_keep hostOps0

theorem W1_arg9 (c : Dev nD) : W1 m ρ c (Proc.devRef .tc main_arg9) = (m ((c.tc : Thread nD τ).loc main_arg9)) := by
  show StableHlo.after hostOps0 (W0 m ρ c) (Proc.devRef .tc main_arg9) = W0 m ρ c (Proc.devRef .tc main_arg9)
  host_keep hostOps0

theorem W1_arg10 (c : Dev nD) : W1 m ρ c (Proc.devRef .tc main_arg10) = (m ((c.tc : Thread nD τ).loc main_arg10)) := by
  show StableHlo.after hostOps0 (W0 m ρ c) (Proc.devRef .tc main_arg10) = W0 m ρ c (Proc.devRef .tc main_arg10)
  host_keep hostOps0

theorem W1_arg11 (c : Dev nD) : W1 m ρ c (Proc.devRef .tc main_arg11) = (m ((c.tc : Thread nD τ).loc main_arg11)) := by
  show StableHlo.after hostOps0 (W0 m ρ c) (Proc.devRef .tc main_arg11) = W0 m ρ c (Proc.devRef .tc main_arg11)
  host_keep hostOps0

theorem W1_arg12 (c : Dev nD) : W1 m ρ c (Proc.devRef .tc main_arg12) = (m ((c.tc : Thread nD τ).loc main_arg12)) := by
  show StableHlo.after hostOps0 (W0 m ρ c) (Proc.devRef .tc main_arg12) = W0 m ρ c (Proc.devRef .tc main_arg12)
  host_keep hostOps0

theorem W1_arg13 (c : Dev nD) : W1 m ρ c (Proc.devRef .tc main_arg13) = (m ((c.tc : Thread nD τ).loc main_arg13)) := by
  show StableHlo.after hostOps0 (W0 m ρ c) (Proc.devRef .tc main_arg13) = W0 m ρ c (Proc.devRef .tc main_arg13)
  host_keep hostOps0

theorem W1_arg14 (c : Dev nD) : W1 m ρ c (Proc.devRef .tc main_arg14) = (m ((c.tc : Thread nD τ).loc main_arg14)) := by
  show StableHlo.after hostOps0 (W0 m ρ c) (Proc.devRef .tc main_arg14) = W0 m ρ c (Proc.devRef .tc main_arg14)
  host_keep hostOps0

theorem W1_arg15 (c : Dev nD) : W1 m ρ c (Proc.devRef .tc main_arg15) = (m ((c.tc : Thread nD τ).loc main_arg15)) := by
  show StableHlo.after hostOps0 (W0 m ρ c) (Proc.devRef .tc main_arg15) = W0 m ρ c (Proc.devRef .tc main_arg15)
  host_keep hostOps0

theorem W1_arg16 (c : Dev nD) : W1 m ρ c (Proc.devRef .tc main_arg16) = (m ((c.tc : Thread nD τ).loc main_arg16)) := by
  show StableHlo.after hostOps0 (W0 m ρ c) (Proc.devRef .tc main_arg16) = W0 m ρ c (Proc.devRef .tc main_arg16)
  host_keep hostOps0

theorem W1_arg17 (c : Dev nD) : W1 m ρ c (Proc.devRef .tc main_arg17) = (m ((c.tc : Thread nD τ).loc main_arg17)) := by
  show StableHlo.after hostOps0 (W0 m ρ c) (Proc.devRef .tc main_arg17) = W0 m ρ c (Proc.devRef .tc main_arg17)
  host_keep hostOps0

set_option maxHeartbeats 4000000 in
theorem W1_v1 (c : Dev nD) : W1 m ρ c (Proc.devRef .tc main_v1) = (eRow (m ((c.tc : Thread nD τ).loc main_arg18))) := by
  show StableHlo.after hostOps0 (W0 m ρ c) (Proc.devRef .tc main_v1) = _
  after_results_simp <;> rfl

set_option maxHeartbeats 4000000 in
theorem W1_v3 (c : Dev nD) : W1 m ρ c (Proc.devRef .tc main_v3) = (eCol (m ((c.tc : Thread nD τ).loc main_arg18))) := by
  show StableHlo.after hostOps0 (W0 m ρ c) (Proc.devRef .tc main_v3) = _
  after_results_simp <;> rfl

set_option maxHeartbeats 4000000 in
theorem W1_v5 (c : Dev nD) : W1 m ρ c (Proc.devRef .tc main_v5) = (eRow (m ((c.tc : Thread nD τ).loc main_arg19))) := by
  show StableHlo.after hostOps0 (W0 m ρ c) (Proc.devRef .tc main_v5) = _
  after_results_simp <;> rfl

set_option maxHeartbeats 4000000 in
theorem W1_v7 (c : Dev nD) : W1 m ρ c (Proc.devRef .tc main_v7) = (eCol (m ((c.tc : Thread nD τ).loc main_arg19))) := by
  show StableHlo.after hostOps0 (W0 m ρ c) (Proc.devRef .tc main_v7) = _
  after_results_simp <;> rfl

set_option maxHeartbeats 4000000 in
theorem W1_v25 (c : Dev nD) : W1 m ρ c (Proc.devRef .tc main_v25) = (nei128 (m ((c.tc : Thread nD τ).loc main_arg0)) (eRow (m ((c.tc : Thread nD τ).loc main_arg18))) (eCol (m ((c.tc : Thread nD τ).loc main_arg18)))) := by
  show StableHlo.after hostOps0 (W0 m ρ c) (Proc.devRef .tc main_v25) = _
  after_results_simp <;> rfl

set_option maxHeartbeats 4000000 in
theorem W1_v26 (c : Dev nD) : W1 m ρ c (Proc.devRef .tc main_v26) = (wcat128 (m ((c.tc : Thread nD τ).loc main_arg2)) (m ((c.tc : Thread nD τ).loc main_arg4))) := by
  show StableHlo.after hostOps0 (W0 m ρ c) (Proc.devRef .tc main_v26) = _
  after_results_simp <;> rfl

set_option maxHeartbeats 4000000 in
theorem W1_v27 (c : Dev nD) : W1 m ρ c (Proc.devRef .tc main_v27) = (addf (F := Ideal) (s := S256) (φ := .f32) (m ((c.tc : Thread nD τ).loc main_arg3)) (m ((c.tc : Thread nD τ).loc main_arg5))) := by
  show StableHlo.after hostOps0 (W0 m ρ c) (Proc.devRef .tc main_v27) = _
  after_results_simp <;> rfl

/-! ## Boundary 2: after region 0 -/

theorem W2_v28 (c : Dev nD) : W2 m ρ c (Proc.devRef .tc main_v28) = (layerCat128 (m ((c.tc : Thread nD τ).loc main_arg0)) (eRow (m ((c.tc : Thread nD τ).loc main_arg18))) (eCol (m ((c.tc : Thread nD τ).loc main_arg18))) (m ((c.tc : Thread nD τ).loc main_arg2)) (m ((c.tc : Thread nD τ).loc main_arg3)) (m ((c.tc : Thread nD τ).loc main_arg4)) (m ((c.tc : Thread nD τ).loc main_arg5))) := by
  refine (W2_arr m ρ c 4).trans ((Cert.KernelIdeal.Region.final0 (V1 m ρ) c).trans ?_)
  show dense (A := 50000) (K := 128) (K2 := 256) (M := 256) (W1 m ρ c (Proc.devRef .tc main_arg0)) (W1 m ρ c (Proc.devRef .tc main_v25)) (W1 m ρ c (Proc.devRef .tc main_v26)) (W1 m ρ c (Proc.devRef .tc main_v27)) = _
  rw [W1_arg0 m ρ c, W1_v25 m ρ c, W1_v26 m ρ c, W1_v27 m ρ c]
  rfl

theorem W2_v1 (c : Dev nD) : W2 m ρ c (Proc.devRef .tc main_v1) = (eRow (m ((c.tc : Thread nD τ).loc main_arg18))) :=
  (W2_of_ne m ρ c main_v1 (by decide)).trans (W1_v1 m ρ c)

theorem W2_v3 (c : Dev nD) : W2 m ρ c (Proc.devRef .tc main_v3) = (eCol (m ((c.tc : Thread nD τ).loc main_arg18))) :=
  (W2_of_ne m ρ c main_v3 (by decide)).trans (W1_v3 m ρ c)

theorem W2_v5 (c : Dev nD) : W2 m ρ c (Proc.devRef .tc main_v5) = (eRow (m ((c.tc : Thread nD τ).loc main_arg19))) :=
  (W2_of_ne m ρ c main_v5 (by decide)).trans (W1_v5 m ρ c)

theorem W2_v7 (c : Dev nD) : W2 m ρ c (Proc.devRef .tc main_v7) = (eCol (m ((c.tc : Thread nD τ).loc main_arg19))) :=
  (W2_of_ne m ρ c main_v7 (by decide)).trans (W1_v7 m ρ c)

theorem W2_arg1 (c : Dev nD) : W2 m ρ c (Proc.devRef .tc main_arg1) = (m ((c.tc : Thread nD τ).loc main_arg1)) :=
  (W2_of_ne m ρ c main_arg1 (by decide)).trans (W1_arg1 m ρ c)

theorem W2_arg6 (c : Dev nD) : W2 m ρ c (Proc.devRef .tc main_arg6) = (m ((c.tc : Thread nD τ).loc main_arg6)) :=
  (W2_of_ne m ρ c main_arg6 (by decide)).trans (W1_arg6 m ρ c)

theorem W2_arg7 (c : Dev nD) : W2 m ρ c (Proc.devRef .tc main_arg7) = (m ((c.tc : Thread nD τ).loc main_arg7)) :=
  (W2_of_ne m ρ c main_arg7 (by decide)).trans (W1_arg7 m ρ c)

theorem W2_arg8 (c : Dev nD) : W2 m ρ c (Proc.devRef .tc main_arg8) = (m ((c.tc : Thread nD τ).loc main_arg8)) :=
  (W2_of_ne m ρ c main_arg8 (by decide)).trans (W1_arg8 m ρ c)

theorem W2_arg9 (c : Dev nD) : W2 m ρ c (Proc.devRef .tc main_arg9) = (m ((c.tc : Thread nD τ).loc main_arg9)) :=
  (W2_of_ne m ρ c main_arg9 (by decide)).trans (W1_arg9 m ρ c)

theorem W2_arg10 (c : Dev nD) : W2 m ρ c (Proc.devRef .tc main_arg10) = (m ((c.tc : Thread nD τ).loc main_arg10)) :=
  (W2_of_ne m ρ c main_arg10 (by decide)).trans (W1_arg10 m ρ c)

theorem W2_arg11 (c : Dev nD) : W2 m ρ c (Proc.devRef .tc main_arg11) = (m ((c.tc : Thread nD τ).loc main_arg11)) :=
  (W2_of_ne m ρ c main_arg11 (by decide)).trans (W1_arg11 m ρ c)

theorem W2_arg12 (c : Dev nD) : W2 m ρ c (Proc.devRef .tc main_arg12) = (m ((c.tc : Thread nD τ).loc main_arg12)) :=
  (W2_of_ne m ρ c main_arg12 (by decide)).trans (W1_arg12 m ρ c)

theorem W2_arg13 (c : Dev nD) : W2 m ρ c (Proc.devRef .tc main_arg13) = (m ((c.tc : Thread nD τ).loc main_arg13)) :=
  (W2_of_ne m ρ c main_arg13 (by decide)).trans (W1_arg13 m ρ c)

theorem W2_arg14 (c : Dev nD) : W2 m ρ c (Proc.devRef .tc main_arg14) = (m ((c.tc : Thread nD τ).loc main_arg14)) :=
  (W2_of_ne m ρ c main_arg14 (by decide)).trans (W1_arg14 m ρ c)

theorem W2_arg15 (c : Dev nD) : W2 m ρ c (Proc.devRef .tc main_arg15) = (m ((c.tc : Thread nD τ).loc main_arg15)) :=
  (W2_of_ne m ρ c main_arg15 (by decide)).trans (W1_arg15 m ρ c)

theorem W2_arg16 (c : Dev nD) : W2 m ρ c (Proc.devRef .tc main_arg16) = (m ((c.tc : Thread nD τ).loc main_arg16)) :=
  (W2_of_ne m ρ c main_arg16 (by decide)).trans (W1_arg16 m ρ c)

theorem W2_arg17 (c : Dev nD) : W2 m ρ c (Proc.devRef .tc main_arg17) = (m ((c.tc : Thread nD τ).loc main_arg17)) :=
  (W2_of_ne m ρ c main_arg17 (by decide)).trans (W1_arg17 m ρ c)

theorem W2_arg0 (c : Dev nD) : W2 m ρ c (Proc.devRef .tc main_arg0) = (m ((c.tc : Thread nD τ).loc main_arg0)) :=
  ((W2_arr m ρ c 0).trans (((dat0 (V1 m ρ) c).arrAt_in 0 rfl _).trans (A_eq0 (V1 m ρ) c 0))).trans (W1_arg0 m ρ c)

end Cert.KernelIdeal.Fold

end
-- ==== Proof.KernelFold2.lean ====
/-
  The contents of the buffers at each boundary of @main, read back to the launch memory.

  At each boundary, each buffer that a later segment still reads is named as a function of the argument arrays: an
  argument is itself (nothing writes it); a buffer a stretch of host operations computes is its operations' term of
  the earlier buffers; a region's output array is the layer of the region's four input arrays; every other buffer
  is what it was at the boundary before.
  This file: boundaries 3 and 4 (the first stream's second layer).
-/
import proofs.«116379_j75033078661165_1_alg».proof.Proof.KernelFold1
import Idealize.ShloMosaic.Lib.StableHlo.Run

set_option maxRecDepth 16384

noncomputable section

namespace Cert.KernelIdeal.Fold

open Cert.KernelIdeal Cert.KernelIdeal.Gen Cert.Sage Cert.SageLayer
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

/-! ## Boundary 3: after host stretch 1 -/

theorem W3_v28 (c : Dev nD) : W3 m ρ c (Proc.devRef .tc main_v28) = (layerCat128 (m ((c.tc : Thread nD τ).loc main_arg0)) (eRow (m ((c.tc : Thread nD τ).loc main_arg18))) (eCol (m ((c.tc : Thread nD τ).loc main_arg18))) (m ((c.tc : Thread nD τ).loc main_arg2)) (m ((c.tc : Thread nD τ).loc main_arg3)) (m ((c.tc : Thread nD τ).loc main_arg4)) (m ((c.tc : Thread nD τ).loc main_arg5))) :=
  (show StableHlo.after hostOps1 (W2 m ρ c) (Proc.devRef .tc main_v28) = W2 m ρ c (Proc.devRef .tc main_v28) from by host_keep hostOps1).trans (W2_v28 m ρ c)

theorem W3_arg0 (c : Dev nD) : W3 m ρ c (Proc.devRef .tc main_arg0) = (m ((c.tc : Thread nD τ).loc main_arg0)) :=
  (show StableHlo.after hostOps1 (W2 m ρ c) (Proc.devRef .tc main_arg0) = W2 m ρ c (Proc.devRef .tc main_arg0) from by host_keep hostOps1).trans (W2_arg0 m ρ c)

theorem W3_arg1 (c : Dev nD) : W3 m ρ c (Proc.devRef .tc main_arg1) = (m ((c.tc : Thread nD τ).loc main_arg1)) :=
  (show StableHlo.after hostOps1 (W2 m ρ c) (Proc.devRef .tc main_arg1) = W2 m ρ c (Proc.devRef .tc main_arg1) from by host_keep hostOps1).trans (W2_arg1 m ρ c)

theorem W3_v5 (c : Dev nD) : W3 m ρ c (Proc.devRef .tc main_v5) = (eRow (m ((c.tc : Thread nD τ).loc main_arg19))) :=
  (show StableHlo.after hostOps1 (W2 m ρ c) (Proc.devRef .tc main_v5) = W2 m ρ c (Proc.devRef .tc main_v5) from by host_keep hostOps1).trans (W2_v5 m ρ c)

theorem W3_v7 (c : Dev nD) : W3 m ρ c (Proc.devRef .tc main_v7) = (eCol (m ((c.tc : Thread nD τ).loc main_arg19))) :=
  (show StableHlo.after hostOps1 (W2 m ρ c) (Proc.devRef .tc main_v7) = W2 m ρ c (Proc.devRef .tc main_v7) from by host_keep hostOps1).trans (W2_v7 m ρ c)

theorem W3_arg10 (c : Dev nD) : W3 m ρ c (Proc.devRef .tc main_arg10) = (m ((c.tc : Thread nD τ).loc main_arg10)) :=
  (show StableHlo.after hostOps1 (W2 m ρ c) (Proc.devRef .tc main_arg10) = W2 m ρ c (Proc.devRef .tc main_arg10) from by host_keep hostOps1).trans (W2_arg10 m ρ c)

theorem W3_arg11 (c : Dev nD) : W3 m ρ c (Proc.devRef .tc main_arg11) = (m ((c.tc : Thread nD τ).loc main_arg11)) :=
  (show StableHlo.after hostOps1 (W2 m ρ c) (Proc.devRef .tc main_arg11) = W2 m ρ c (Proc.devRef .tc main_arg11) from by host_keep hostOps1).trans (W2_arg11 m ρ c)

theorem W3_arg12 (c : Dev nD) : W3 m ρ c (Proc.devRef .tc main_arg12) = (m ((c.tc : Thread nD τ).loc main_arg12)) :=
  (show StableHlo.after hostOps1 (W2 m ρ c) (Proc.devRef .tc main_arg12) = W2 m ρ c (Proc.devRef .tc main_arg12) from by host_keep hostOps1).trans (W2_arg12 m ρ c)

theorem W3_arg13 (c : Dev nD) : W3 m ρ c (Proc.devRef .tc main_arg13) = (m ((c.tc : Thread nD τ).loc main_arg13)) :=
  (show StableHlo.after hostOps1 (W2 m ρ c) (Proc.devRef .tc main_arg13) = W2 m ρ c (Proc.devRef .tc main_arg13) from by host_keep hostOps1).trans (W2_arg13 m ρ c)

theorem W3_arg14 (c : Dev nD) : W3 m ρ c (Proc.devRef .tc main_arg14) = (m ((c.tc : Thread nD τ).loc main_arg14)) :=
  (show StableHlo.after hostOps1 (W2 m ρ c) (Proc.devRef .tc main_arg14) = W2 m ρ c (Proc.devRef .tc main_arg14) from by host_keep hostOps1).trans (W2_arg14 m ρ c)

theorem W3_arg15 (c : Dev nD) : W3 m ρ c (Proc.devRef .tc main_arg15) = (m ((c.tc : Thread nD τ).loc main_arg15)) :=
  (show StableHlo.after hostOps1 (W2 m ρ c) (Proc.devRef .tc main_arg15) = W2 m ρ c (Proc.devRef .tc main_arg15) from by host_keep hostOps1).trans (W2_arg15 m ρ c)

theorem W3_arg16 (c : Dev nD) : W3 m ρ c (Proc.devRef .tc main_arg16) = (m ((c.tc : Thread nD τ).loc main_arg16)) :=
  (show StableHlo.after hostOps1 (W2 m ρ c) (Proc.devRef .tc main_arg16) = W2 m ρ c (Proc.devRef .tc main_arg16) from by host_keep hostOps1).trans (W2_arg16 m ρ c)

theorem W3_arg17 (c : Dev nD) : W3 m ρ c (Proc.devRef .tc main_arg17) = (m ((c.tc : Thread nD τ).loc main_arg17)) :=
  (show StableHlo.after hostOps1 (W2 m ρ c) (Proc.devRef .tc main_arg17) = W2 m ρ c (Proc.devRef .tc main_arg17) from by host_keep hostOps1).trans (W2_arg17 m ρ c)

set_option maxHeartbeats 4000000 in
theorem W3_v46 (c : Dev nD) : W3 m ρ c (Proc.devRef .tc main_v46) = (nei256 (layerCat128 (m ((c.tc : Thread nD τ).loc main_arg0)) (eRow (m ((c.tc : Thread nD τ).loc main_arg18))) (eCol (m ((c.tc : Thread nD τ).loc main_arg18))) (m ((c.tc : Thread nD τ).loc main_arg2)) (m ((c.tc : Thread nD τ).loc main_arg3)) (m ((c.tc : Thread nD τ).loc main_arg4)) (m ((c.tc : Thread nD τ).loc main_arg5))) (eRow (m ((c.tc : Thread nD τ).loc main_arg18))) (eCol (m ((c.tc : Thread nD τ).loc main_arg18)))) := by
  have h : W3 m ρ c (Proc.devRef .tc main_v46) = nei256 (W2 m ρ c (Proc.devRef .tc main_v28)) (W2 m ρ c (Proc.devRef .tc main_v1)) (W2 m ρ c (Proc.devRef .tc main_v3)) := by
    show StableHlo.after hostOps1 (W2 m ρ c) (Proc.devRef .tc main_v46) = _
    after_results_simp <;> rfl
  rw [h, W2_v28 m ρ c, W2_v1 m ρ c, W2_v3 m ρ c]

set_option maxHeartbeats 4000000 in
theorem W3_v47 (c : Dev nD) : W3 m ρ c (Proc.devRef .tc main_v47) = (wcat256 (m ((c.tc : Thread nD τ).loc main_arg6)) (m ((c.tc : Thread nD τ).loc main_arg8))) := by
  have h : W3 m ρ c (Proc.devRef .tc main_v47) = wcat256 (W2 m ρ c (Proc.devRef .tc main_arg6)) (W2 m ρ c (Proc.devRef .tc main_arg8)) := by
    show StableHlo.after hostOps1 (W2 m ρ c) (Proc.devRef .tc main_v47) = _
    after_results_simp <;> rfl
  rw [h, W2_arg6 m ρ c, W2_arg8 m ρ c]

set_option maxHeartbeats 4000000 in
theorem W3_v48 (c : Dev nD) : W3 m ρ c (Proc.devRef .tc main_v48) = (addf (F := Ideal) (s := S256) (φ := .f32) (m ((c.tc : Thread nD τ).loc main_arg7)) (m ((c.tc : Thread nD τ).loc main_arg9))) := by
  have h : W3 m ρ c (Proc.devRef .tc main_v48) = addf (F := Ideal) (s := S256) (φ := .f32) (W2 m ρ c (Proc.devRef .tc main_arg7)) (W2 m ρ c (Proc.devRef .tc main_arg9)) := by
    show StableHlo.after hostOps1 (W2 m ρ c) (Proc.devRef .tc main_v48) = _
    after_results_simp <;> rfl
  rw [h, W2_arg7 m ρ c, W2_arg9 m ρ c]

/-! ## Boundary 4: after region 1 -/

theorem W4_v49 (c : Dev nD) : W4 m ρ c (Proc.devRef .tc main_v49) = (layerCat256 (layerCat128 (m ((c.tc : Thread nD τ).loc main_arg0)) (eRow (m ((c.tc : Thread nD τ).loc main_arg18))) (eCol (m ((c.tc : Thread nD τ).loc main_arg18))) (m ((c.tc : Thread nD τ).loc main_arg2)) (m ((c.tc : Thread nD τ).loc main_arg3)) (m ((c.tc : Thread nD τ).loc main_arg4)) (m ((c.tc : Thread nD τ).loc main_arg5))) (eRow (m ((c.tc : Thread nD τ).loc main_arg18))) (eCol (m ((c.tc : Thread nD τ).loc main_arg18))) (m ((c.tc : Thread nD τ).loc main_arg6)) (m ((c.tc : Thread nD τ).loc main_arg7)) (m ((c.tc : Thread nD τ).loc main_arg8)) (m ((c.tc : Thread nD τ).loc main_arg9))) := by
  refine (W4_arr m ρ c 4).trans ((Cert.KernelIdeal.Region.final1 (V3 m ρ) c).trans ?_)
  show dense (A := 50000) (K := 256) (K2 := 512) (M := 256) (W3 m ρ c (Proc.devRef .tc main_v28)) (W3 m ρ c (Proc.devRef .tc main_v46)) (W3 m ρ c (Proc.devRef .tc main_v47)) (W3 m ρ c (Proc.devRef .tc main_v48)) = _
  rw [W3_v28 m ρ c, W3_v46 m ρ c, W3_v47 m ρ c, W3_v48 m ρ c]
  rfl

theorem W4_arg0 (c : Dev nD) : W4 m ρ c (Proc.devRef .tc main_arg0) = (m ((c.tc : Thread nD τ).loc main_arg0)) :=
  (W4_of_ne m ρ c main_arg0 (by decide)).trans (W3_arg0 m ρ c)

theorem W4_arg1 (c : Dev nD) : W4 m ρ c (Proc.devRef .tc main_arg1) = (m ((c.tc : Thread nD τ).loc main_arg1)) :=
  (W4_of_ne m ρ c main_arg1 (by decide)).trans (W3_arg1 m ρ c)

theorem W4_v5 (c : Dev nD) : W4 m ρ c (Proc.devRef .tc main_v5) = (eRow (m ((c.tc : Thread nD τ).loc main_arg19))) :=
  (W4_of_ne m ρ c main_v5 (by decide)).trans (W3_v5 m ρ c)

theorem W4_v7 (c : Dev nD) : W4 m ρ c (Proc.devRef .tc main_v7) = (eCol (m ((c.tc : Thread nD τ).loc main_arg19))) :=
  (W4_of_ne m ρ c main_v7 (by decide)).trans (W3_v7 m ρ c)

theorem W4_arg10 (c : Dev nD) : W4 m ρ c (Proc.devRef .tc main_arg10) = (m ((c.tc : Thread nD τ).loc main_arg10)) :=
  (W4_of_ne m ρ c main_arg10 (by decide)).trans (W3_arg10 m ρ c)

theorem W4_arg11 (c : Dev nD) : W4 m ρ c (Proc.devRef .tc main_arg11) = (m ((c.tc : Thread nD τ).loc main_arg11)) :=
  (W4_of_ne m ρ c main_arg11 (by decide)).trans (W3_arg11 m ρ c)

theorem W4_arg12 (c : Dev nD) : W4 m ρ c (Proc.devRef .tc main_arg12) = (m ((c.tc : Thread nD τ).loc main_arg12)) :=
  (W4_of_ne m ρ c main_arg12 (by decide)).trans (W3_arg12 m ρ c)

theorem W4_arg13 (c : Dev nD) : W4 m ρ c (Proc.devRef .tc main_arg13) = (m ((c.tc : Thread nD τ).loc main_arg13)) :=
  (W4_of_ne m ρ c main_arg13 (by decide)).trans (W3_arg13 m ρ c)

theorem W4_arg14 (c : Dev nD) : W4 m ρ c (Proc.devRef .tc main_arg14) = (m ((c.tc : Thread nD τ).loc main_arg14)) :=
  (W4_of_ne m ρ c main_arg14 (by decide)).trans (W3_arg14 m ρ c)

theorem W4_arg15 (c : Dev nD) : W4 m ρ c (Proc.devRef .tc main_arg15) = (m ((c.tc : Thread nD τ).loc main_arg15)) :=
  (W4_of_ne m ρ c main_arg15 (by decide)).trans (W3_arg15 m ρ c)

theorem W4_arg16 (c : Dev nD) : W4 m ρ c (Proc.devRef .tc main_arg16) = (m ((c.tc : Thread nD τ).loc main_arg16)) :=
  (W4_of_ne m ρ c main_arg16 (by decide)).trans (W3_arg16 m ρ c)

theorem W4_arg17 (c : Dev nD) : W4 m ρ c (Proc.devRef .tc main_arg17) = (m ((c.tc : Thread nD τ).loc main_arg17)) :=
  (W4_of_ne m ρ c main_arg17 (by decide)).trans (W3_arg17 m ρ c)

end Cert.KernelIdeal.Fold

end
-- ==== Proof.KernelFold3.lean ====
/-
  The contents of the buffers at each boundary of @main, read back to the launch memory.

  At each boundary, each buffer that a later segment still reads is named as a function of the argument arrays: an
  argument is itself (nothing writes it); a buffer a stretch of host operations computes is its operations' term of
  the earlier buffers; a region's output array is the layer of the region's four input arrays; every other buffer
  is what it was at the boundary before.
  This file: boundaries 5 and 6 (the second stream's first layer).
-/
import proofs.«116379_j75033078661165_1_alg».proof.Proof.KernelFold2
import Idealize.ShloMosaic.Lib.StableHlo.Run

set_option maxRecDepth 16384

noncomputable section

namespace Cert.KernelIdeal.Fold

open Cert.KernelIdeal Cert.KernelIdeal.Gen Cert.Sage Cert.SageLayer
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

/-! ## Boundary 5: after host stretch 2 -/

theorem W5_arg0 (c : Dev nD) : W5 m ρ c (Proc.devRef .tc main_arg0) = (m ((c.tc : Thread nD τ).loc main_arg0)) :=
  (show StableHlo.after hostOps2 (W4 m ρ c) (Proc.devRef .tc main_arg0) = W4 m ρ c (Proc.devRef .tc main_arg0) from by host_keep hostOps2).trans (W4_arg0 m ρ c)

theorem W5_arg1 (c : Dev nD) : W5 m ρ c (Proc.devRef .tc main_arg1) = (m ((c.tc : Thread nD τ).loc main_arg1)) :=
  (show StableHlo.after hostOps2 (W4 m ρ c) (Proc.devRef .tc main_arg1) = W4 m ρ c (Proc.devRef .tc main_arg1) from by host_keep hostOps2).trans (W4_arg1 m ρ c)

theorem W5_v5 (c : Dev nD) : W5 m ρ c (Proc.devRef .tc main_v5) = (eRow (m ((c.tc : Thread nD τ).loc main_arg19))) :=
  (show StableHlo.after hostOps2 (W4 m ρ c) (Proc.devRef .tc main_v5) = W4 m ρ c (Proc.devRef .tc main_v5) from by host_keep hostOps2).trans (W4_v5 m ρ c)

theorem W5_v7 (c : Dev nD) : W5 m ρ c (Proc.devRef .tc main_v7) = (eCol (m ((c.tc : Thread nD τ).loc main_arg19))) :=
  (show StableHlo.after hostOps2 (W4 m ρ c) (Proc.devRef .tc main_v7) = W4 m ρ c (Proc.devRef .tc main_v7) from by host_keep hostOps2).trans (W4_v7 m ρ c)

theorem W5_arg14 (c : Dev nD) : W5 m ρ c (Proc.devRef .tc main_arg14) = (m ((c.tc : Thread nD τ).loc main_arg14)) :=
  (show StableHlo.after hostOps2 (W4 m ρ c) (Proc.devRef .tc main_arg14) = W4 m ρ c (Proc.devRef .tc main_arg14) from by host_keep hostOps2).trans (W4_arg14 m ρ c)

theorem W5_arg15 (c : Dev nD) : W5 m ρ c (Proc.devRef .tc main_arg15) = (m ((c.tc : Thread nD τ).loc main_arg15)) :=
  (show StableHlo.after hostOps2 (W4 m ρ c) (Proc.devRef .tc main_arg15) = W4 m ρ c (Proc.devRef .tc main_arg15) from by host_keep hostOps2).trans (W4_arg15 m ρ c)

theorem W5_arg16 (c : Dev nD) : W5 m ρ c (Proc.devRef .tc main_arg16) = (m ((c.tc : Thread nD τ).loc main_arg16)) :=
  (show StableHlo.after hostOps2 (W4 m ρ c) (Proc.devRef .tc main_arg16) = W4 m ρ c (Proc.devRef .tc main_arg16) from by host_keep hostOps2).trans (W4_arg16 m ρ c)

theorem W5_arg17 (c : Dev nD) : W5 m ρ c (Proc.devRef .tc main_arg17) = (m ((c.tc : Thread nD τ).loc main_arg17)) :=
  (show StableHlo.after hostOps2 (W4 m ρ c) (Proc.devRef .tc main_arg17) = W4 m ρ c (Proc.devRef .tc main_arg17) from by host_keep hostOps2).trans (W4_arg17 m ρ c)

theorem W5_v49 (c : Dev nD) : W5 m ρ c (Proc.devRef .tc main_v49) = (layerCat256 (layerCat128 (m ((c.tc : Thread nD τ).loc main_arg0)) (eRow (m ((c.tc : Thread nD τ).loc main_arg18))) (eCol (m ((c.tc : Thread nD τ).loc main_arg18))) (m ((c.tc : Thread nD τ).loc main_arg2)) (m ((c.tc : Thread nD τ).loc main_arg3)) (m ((c.tc : Thread nD τ).loc main_arg4)) (m ((c.tc : Thread nD τ).loc main_arg5))) (eRow (m ((c.tc : Thread nD τ).loc main_arg18))) (eCol (m ((c.tc : Thread nD τ).loc main_arg18))) (m ((c.tc : Thread nD τ).loc main_arg6)) (m ((c.tc : Thread nD τ).loc main_arg7)) (m ((c.tc : Thread nD τ).loc main_arg8)) (m ((c.tc : Thread nD τ).loc main_arg9))) :=
  (show StableHlo.after hostOps2 (W4 m ρ c) (Proc.devRef .tc main_v49) = W4 m ρ c (Proc.devRef .tc main_v49) from by host_keep hostOps2).trans (W4_v49 m ρ c)

set_option maxHeartbeats 4000000 in
theorem W5_v67 (c : Dev nD) : W5 m ρ c (Proc.devRef .tc main_v67) = (nei128 (m ((c.tc : Thread nD τ).loc main_arg0)) (eRow (m ((c.tc : Thread nD τ).loc main_arg19))) (eCol (m ((c.tc : Thread nD τ).loc main_arg19)))) := by
  have h : W5 m ρ c (Proc.devRef .tc main_v67) = nei128 (W4 m ρ c (Proc.devRef .tc main_arg0)) (W4 m ρ c (Proc.devRef .tc main_v5)) (W4 m ρ c (Proc.devRef .tc main_v7)) := by
    show StableHlo.after hostOps2 (W4 m ρ c) (Proc.devRef .tc main_v67) = _
    after_results_simp <;> rfl
  rw [h, W4_arg0 m ρ c, W4_v5 m ρ c, W4_v7 m ρ c]

set_option maxHeartbeats 4000000 in
theorem W5_v68 (c : Dev nD) : W5 m ρ c (Proc.devRef .tc main_v68) = (wcat128 (m ((c.tc : Thread nD τ).loc main_arg10)) (m ((c.tc : Thread nD τ).loc main_arg12))) := by
  have h : W5 m ρ c (Proc.devRef .tc main_v68) = wcat128 (W4 m ρ c (Proc.devRef .tc main_arg10)) (W4 m ρ c (Proc.devRef .tc main_arg12)) := by
    show StableHlo.after hostOps2 (W4 m ρ c) (Proc.devRef .tc main_v68) = _
    after_results_simp <;> rfl
  rw [h, W4_arg10 m ρ c, W4_arg12 m ρ c]

set_option maxHeartbeats 4000000 in
theorem W5_v69 (c : Dev nD) : W5 m ρ c (Proc.devRef .tc main_v69) = (addf (F := Ideal) (s := S256) (φ := .f32) (m ((c.tc : Thread nD τ).loc main_arg11)) (m ((c.tc : Thread nD τ).loc main_arg13))) := by
  have h : W5 m ρ c (Proc.devRef .tc main_v69) = addf (F := Ideal) (s := S256) (φ := .f32) (W4 m ρ c (Proc.devRef .tc main_arg11)) (W4 m ρ c (Proc.devRef .tc main_arg13)) := by
    show StableHlo.after hostOps2 (W4 m ρ c) (Proc.devRef .tc main_v69) = _
    after_results_simp <;> rfl
  rw [h, W4_arg11 m ρ c, W4_arg13 m ρ c]

/-! ## Boundary 6: after region 2 -/

theorem W6_v70 (c : Dev nD) : W6 m ρ c (Proc.devRef .tc main_v70) = (layerCat128 (m ((c.tc : Thread nD τ).loc main_arg0)) (eRow (m ((c.tc : Thread nD τ).loc main_arg19))) (eCol (m ((c.tc : Thread nD τ).loc main_arg19))) (m ((c.tc : Thread nD τ).loc main_arg10)) (m ((c.tc : Thread nD τ).loc main_arg11)) (m ((c.tc : Thread nD τ).loc main_arg12)) (m ((c.tc : Thread nD τ).loc main_arg13))) := by
  refine (W6_arr m ρ c 4).trans ((Cert.KernelIdeal.Region.final2 (V5 m ρ) c).trans ?_)
  show dense (A := 50000) (K := 128) (K2 := 256) (M := 256) (W5 m ρ c (Proc.devRef .tc main_arg0)) (W5 m ρ c (Proc.devRef .tc main_v67)) (W5 m ρ c (Proc.devRef .tc main_v68)) (W5 m ρ c (Proc.devRef .tc main_v69)) = _
  rw [W5_arg0 m ρ c, W5_v67 m ρ c, W5_v68 m ρ c, W5_v69 m ρ c]
  rfl

theorem W6_arg1 (c : Dev nD) : W6 m ρ c (Proc.devRef .tc main_arg1) = (m ((c.tc : Thread nD τ).loc main_arg1)) :=
  (W6_of_ne m ρ c main_arg1 (by decide)).trans (W5_arg1 m ρ c)

theorem W6_v5 (c : Dev nD) : W6 m ρ c (Proc.devRef .tc main_v5) = (eRow (m ((c.tc : Thread nD τ).loc main_arg19))) :=
  (W6_of_ne m ρ c main_v5 (by decide)).trans (W5_v5 m ρ c)

theorem W6_v7 (c : Dev nD) : W6 m ρ c (Proc.devRef .tc main_v7) = (eCol (m ((c.tc : Thread nD τ).loc main_arg19))) :=
  (W6_of_ne m ρ c main_v7 (by decide)).trans (W5_v7 m ρ c)

theorem W6_arg14 (c : Dev nD) : W6 m ρ c (Proc.devRef .tc main_arg14) = (m ((c.tc : Thread nD τ).loc main_arg14)) :=
  (W6_of_ne m ρ c main_arg14 (by decide)).trans (W5_arg14 m ρ c)

theorem W6_arg15 (c : Dev nD) : W6 m ρ c (Proc.devRef .tc main_arg15) = (m ((c.tc : Thread nD τ).loc main_arg15)) :=
  (W6_of_ne m ρ c main_arg15 (by decide)).trans (W5_arg15 m ρ c)

theorem W6_arg16 (c : Dev nD) : W6 m ρ c (Proc.devRef .tc main_arg16) = (m ((c.tc : Thread nD τ).loc main_arg16)) :=
  (W6_of_ne m ρ c main_arg16 (by decide)).trans (W5_arg16 m ρ c)

theorem W6_arg17 (c : Dev nD) : W6 m ρ c (Proc.devRef .tc main_arg17) = (m ((c.tc : Thread nD τ).loc main_arg17)) :=
  (W6_of_ne m ρ c main_arg17 (by decide)).trans (W5_arg17 m ρ c)

theorem W6_v49 (c : Dev nD) : W6 m ρ c (Proc.devRef .tc main_v49) = (layerCat256 (layerCat128 (m ((c.tc : Thread nD τ).loc main_arg0)) (eRow (m ((c.tc : Thread nD τ).loc main_arg18))) (eCol (m ((c.tc : Thread nD τ).loc main_arg18))) (m ((c.tc : Thread nD τ).loc main_arg2)) (m ((c.tc : Thread nD τ).loc main_arg3)) (m ((c.tc : Thread nD τ).loc main_arg4)) (m ((c.tc : Thread nD τ).loc main_arg5))) (eRow (m ((c.tc : Thread nD τ).loc main_arg18))) (eCol (m ((c.tc : Thread nD τ).loc main_arg18))) (m ((c.tc : Thread nD τ).loc main_arg6)) (m ((c.tc : Thread nD τ).loc main_arg7)) (m ((c.tc : Thread nD τ).loc main_arg8)) (m ((c.tc : Thread nD τ).loc main_arg9))) :=
  (W6_of_ne m ρ c main_v49 (by decide)).trans (W5_v49 m ρ c)

end Cert.KernelIdeal.Fold

end
-- ==== Proof.KernelFold4.lean ====
/-
  The contents of the buffers at each boundary of @main, read back to the launch memory.

  At each boundary, each buffer that a later segment still reads is named as a function of the argument arrays: an
  argument is itself (nothing writes it); a buffer a stretch of host operations computes is its operations' term of
  the earlier buffers; a region's output array is the layer of the region's four input arrays; every other buffer
  is what it was at the boundary before.
  This file: boundaries 7, 8 and 9 (the second stream's second layer and the mix).
-/
import proofs.«116379_j75033078661165_1_alg».proof.Proof.KernelFold3
import Idealize.ShloMosaic.Lib.StableHlo.Run

set_option maxRecDepth 16384

noncomputable section

namespace Cert.KernelIdeal.Fold

open Cert.KernelIdeal Cert.KernelIdeal.Gen Cert.Sage Cert.SageLayer
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

/-! ## Boundary 7: after host stretch 3 -/

theorem W7_v70 (c : Dev nD) : W7 m ρ c (Proc.devRef .tc main_v70) = (layerCat128 (m ((c.tc : Thread nD τ).loc main_arg0)) (eRow (m ((c.tc : Thread nD τ).loc main_arg19))) (eCol (m ((c.tc : Thread nD τ).loc main_arg19))) (m ((c.tc : Thread nD τ).loc main_arg10)) (m ((c.tc : Thread nD τ).loc main_arg11)) (m ((c.tc : Thread nD τ).loc main_arg12)) (m ((c.tc : Thread nD τ).loc main_arg13))) :=
  (show StableHlo.after hostOps3 (W6 m ρ c) (Proc.devRef .tc main_v70) = W6 m ρ c (Proc.devRef .tc main_v70) from by host_keep hostOps3).trans (W6_v70 m ρ c)

theorem W7_arg1 (c : Dev nD) : W7 m ρ c (Proc.devRef .tc main_arg1) = (m ((c.tc : Thread nD τ).loc main_arg1)) :=
  (show StableHlo.after hostOps3 (W6 m ρ c) (Proc.devRef .tc main_arg1) = W6 m ρ c (Proc.devRef .tc main_arg1) from by host_keep hostOps3).trans (W6_arg1 m ρ c)

theorem W7_v49 (c : Dev nD) : W7 m ρ c (Proc.devRef .tc main_v49) = (layerCat256 (layerCat128 (m ((c.tc : Thread nD τ).loc main_arg0)) (eRow (m ((c.tc : Thread nD τ).loc main_arg18))) (eCol (m ((c.tc : Thread nD τ).loc main_arg18))) (m ((c.tc : Thread nD τ).loc main_arg2)) (m ((c.tc : Thread nD τ).loc main_arg3)) (m ((c.tc : Thread nD τ).loc main_arg4)) (m ((c.tc : Thread nD τ).loc main_arg5))) (eRow (m ((c.tc : Thread nD τ).loc main_arg18))) (eCol (m ((c.tc : Thread nD τ).loc main_arg18))) (m ((c.tc : Thread nD τ).loc main_arg6)) (m ((c.tc : Thread nD τ).loc main_arg7)) (m ((c.tc : Thread nD τ).loc main_arg8)) (m ((c.tc : Thread nD τ).loc main_arg9))) :=
  (show StableHlo.after hostOps3 (W6 m ρ c) (Proc.devRef .tc main_v49) = W6 m ρ c (Proc.devRef .tc main_v49) from by host_keep hostOps3).trans (W6_v49 m ρ c)

set_option maxHeartbeats 4000000 in
theorem W7_v88 (c : Dev nD) : W7 m ρ c (Proc.devRef .tc main_v88) = (nei256 (layerCat128 (m ((c.tc : Thread nD τ).loc main_arg0)) (eRow (m ((c.tc : Thread nD τ).loc main_arg19))) (eCol (m ((c.tc : Thread nD τ).loc main_arg19))) (m ((c.tc : Thread nD τ).loc main_arg10)) (m ((c.tc : Thread nD τ).loc main_arg11)) (m ((c.tc : Thread nD τ).loc main_arg12)) (m ((c.tc : Thread nD τ).loc main_arg13))) (eRow (m ((c.tc : Thread nD τ).loc main_arg19))) (eCol (m ((c.tc : Thread nD τ).loc main_arg19)))) := by
  have h : W7 m ρ c (Proc.devRef .tc main_v88) = nei256 (W6 m ρ c (Proc.devRef .tc main_v70)) (W6 m ρ c (Proc.devRef .tc main_v5)) (W6 m ρ c (Proc.devRef .tc main_v7)) := by
    show StableHlo.after hostOps3 (W6 m ρ c) (Proc.devRef .tc main_v88) = _
    after_results_simp <;> rfl
  rw [h, W6_v70 m ρ c, W6_v5 m ρ c, W6_v7 m ρ c]

set_option maxHeartbeats 4000000 in
theorem W7_v89 (c : Dev nD) : W7 m ρ c (Proc.devRef .tc main_v89) = (wcat256 (m ((c.tc : Thread nD τ).loc main_arg14)) (m ((c.tc : Thread nD τ).loc main_arg16))) := by
  have h : W7 m ρ c (Proc.devRef .tc main_v89) = wcat256 (W6 m ρ c (Proc.devRef .tc main_arg14)) (W6 m ρ c (Proc.devRef .tc main_arg16)) := by
    show StableHlo.after hostOps3 (W6 m ρ c) (Proc.devRef .tc main_v89) = _
    after_results_simp <;> rfl
  rw [h, W6_arg14 m ρ c, W6_arg16 m ρ c]

set_option maxHeartbeats 4000000 in
theorem W7_v90 (c : Dev nD) : W7 m ρ c (Proc.devRef .tc main_v90) = (addf (F := Ideal) (s := S256) (φ := .f32) (m ((c.tc : Thread nD τ).loc main_arg15)) (m ((c.tc : Thread nD τ).loc main_arg17))) := by
  have h : W7 m ρ c (Proc.devRef .tc main_v90) = addf (F := Ideal) (s := S256) (φ := .f32) (W6 m ρ c (Proc.devRef .tc main_arg15)) (W6 m ρ c (Proc.devRef .tc main_arg17)) := by
    show StableHlo.after hostOps3 (W6 m ρ c) (Proc.devRef .tc main_v90) = _
    after_results_simp <;> rfl
  rw [h, W6_arg15 m ρ c, W6_arg17 m ρ c]

/-! ## Boundary 8: after region 3 -/

theorem W8_v91 (c : Dev nD) : W8 m ρ c (Proc.devRef .tc main_v91) = (layerCat256 (layerCat128 (m ((c.tc : Thread nD τ).loc main_arg0)) (eRow (m ((c.tc : Thread nD τ).loc main_arg19))) (eCol (m ((c.tc : Thread nD τ).loc main_arg19))) (m ((c.tc : Thread nD τ).loc main_arg10)) (m ((c.tc : Thread nD τ).loc main_arg11)) (m ((c.tc : Thread nD τ).loc main_arg12)) (m ((c.tc : Thread nD τ).loc main_arg13))) (eRow (m ((c.tc : Thread nD τ).loc main_arg19))) (eCol (m ((c.tc : Thread nD τ).loc main_arg19))) (m ((c.tc : Thread nD τ).loc main_arg14)) (m ((c.tc : Thread nD τ).loc main_arg15)) (m ((c.tc : Thread nD τ).loc main_arg16)) (m ((c.tc : Thread nD τ).loc main_arg17))) := by
  refine (W8_arr m ρ c 4).trans ((Cert.KernelIdeal.Region.final3 (V7 m ρ) c).trans ?_)
  show dense (A := 50000) (K := 256) (K2 := 512) (M := 256) (W7 m ρ c (Proc.devRef .tc main_v70)) (W7 m ρ c (Proc.devRef .tc main_v88)) (W7 m ρ c (Proc.devRef .tc main_v89)) (W7 m ρ c (Proc.devRef .tc main_v90)) = _
  rw [W7_v70 m ρ c, W7_v88 m ρ c, W7_v89 m ρ c, W7_v90 m ρ c]
  rfl

theorem W8_arg1 (c : Dev nD) : W8 m ρ c (Proc.devRef .tc main_arg1) = (m ((c.tc : Thread nD τ).loc main_arg1)) :=
  (W8_of_ne m ρ c main_arg1 (by decide)).trans (W7_arg1 m ρ c)

theorem W8_v49 (c : Dev nD) : W8 m ρ c (Proc.devRef .tc main_v49) = (layerCat256 (layerCat128 (m ((c.tc : Thread nD τ).loc main_arg0)) (eRow (m ((c.tc : Thread nD τ).loc main_arg18))) (eCol (m ((c.tc : Thread nD τ).loc main_arg18))) (m ((c.tc : Thread nD τ).loc main_arg2)) (m ((c.tc : Thread nD τ).loc main_arg3)) (m ((c.tc : Thread nD τ).loc main_arg4)) (m ((c.tc : Thread nD τ).loc main_arg5))) (eRow (m ((c.tc : Thread nD τ).loc main_arg18))) (eCol (m ((c.tc : Thread nD τ).loc main_arg18))) (m ((c.tc : Thread nD τ).loc main_arg6)) (m ((c.tc : Thread nD τ).loc main_arg7)) (m ((c.tc : Thread nD τ).loc main_arg8)) (m ((c.tc : Thread nD τ).loc main_arg9))) :=
  (W8_of_ne m ρ c main_v49 (by decide)).trans (W7_v49 m ρ c)

/-! ## Boundary 9: after host stretch 4 -/

set_option maxHeartbeats 4000000 in
theorem W9_v101 (c : Dev nD) : W9 m ρ c (Proc.devRef .tc main_v101) = (mix (m ((c.tc : Thread nD τ).loc main_arg1)) (layerCat256 (layerCat128 (m ((c.tc : Thread nD τ).loc main_arg0)) (eRow (m ((c.tc : Thread nD τ).loc main_arg18))) (eCol (m ((c.tc : Thread nD τ).loc main_arg18))) (m ((c.tc : Thread nD τ).loc main_arg2)) (m ((c.tc : Thread nD τ).loc main_arg3)) (m ((c.tc : Thread nD τ).loc main_arg4)) (m ((c.tc : Thread nD τ).loc main_arg5))) (eRow (m ((c.tc : Thread nD τ).loc main_arg18))) (eCol (m ((c.tc : Thread nD τ).loc main_arg18))) (m ((c.tc : Thread nD τ).loc main_arg6)) (m ((c.tc : Thread nD τ).loc main_arg7)) (m ((c.tc : Thread nD τ).loc main_arg8)) (m ((c.tc : Thread nD τ).loc main_arg9))) (layerCat256 (layerCat128 (m ((c.tc : Thread nD τ).loc main_arg0)) (eRow (m ((c.tc : Thread nD τ).loc main_arg19))) (eCol (m ((c.tc : Thread nD τ).loc main_arg19))) (m ((c.tc : Thread nD τ).loc main_arg10)) (m ((c.tc : Thread nD τ).loc main_arg11)) (m ((c.tc : Thread nD τ).loc main_arg12)) (m ((c.tc : Thread nD τ).loc main_arg13))) (eRow (m ((c.tc : Thread nD τ).loc main_arg19))) (eCol (m ((c.tc : Thread nD τ).loc main_arg19))) (m ((c.tc : Thread nD τ).loc main_arg14)) (m ((c.tc : Thread nD τ).loc main_arg15)) (m ((c.tc : Thread nD τ).loc main_arg16)) (m ((c.tc : Thread nD τ).loc main_arg17)))) := by
  have h : W9 m ρ c (Proc.devRef .tc main_v101) = mix (W8 m ρ c (Proc.devRef .tc main_arg1)) (W8 m ρ c (Proc.devRef .tc main_v49)) (W8 m ρ c (Proc.devRef .tc main_v91)) := by
    show StableHlo.after hostOps4 (W8 m ρ c) (Proc.devRef .tc main_v101) = _
    after_results_simp <;> rfl
  rw [h, W8_arg1 m ρ c, W8_v49 m ρ c, W8_v91 m ρ c]

end Cert.KernelIdeal.Fold

end
-- ==== Proof.LibBcastInDim.lean ====
/-
  `stablehlo.broadcast_in_dim` of small shapes, read at an index given by coordinates.

  A vector laid along the second axis of a one-row matrix, a one-row matrix repeated down the rows, a vector laid down
  the first axis of a one-column matrix, and a one-column matrix repeated across the columns: each entry of the result
  is the operand's entry at the coordinates the operand has.
-/
import Idealize.ShloMosaic.Lib.Pipeline.Value
import Idealize.ShloMosaic.Lib.ValueIdx

namespace Cert.BcastInDim

open Idealize.ShloMosaic Idealize.ShloMosaic.ValueIdx

variable {α : Type}

/-- A scalar repeated over any shape: every entry is the scalar. -/
theorem scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector [b] as the one row of a [1, b] matrix: entry (u, q) is the vector's entry q. -/
theorem vec_row_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A one-row matrix [1, b] repeated down a rows: entry (k, q) is the row's entry q. -/
theorem row_mat_apply {a b : ℕ} (x : (⟨2, ![1, b]⟩ : Shape).Idx → α)
    (h : (⟨2, ![1, b]⟩ : Shape).BroadcastsInDim ⟨2, ![a, b]⟩ (![0, 1] : Fin 2 → Fin 2)) (k : Fin a) (q : Fin b) :
    broadcastInDim ⟨2, ![a, b]⟩ ![0, 1] h x (ix2 k q) = x (ix2 (0 : Fin 1) q) := by
  refine broadcastInDim_apply _ h x (ix2 k q) (ix2 (0 : Fin 1) q) fun ax => ?_
  match ax with
  | ⟨0, _⟩ => rfl
  | ⟨1, _⟩ =>
    show q.val = if b = 1 then 0 else q.val
    split
    · have := q.isLt; omega
    · rfl

/-- A vector [a] as the one column of an [a, 1] matrix: entry (k, u) is the vector's entry k. -/
theorem vec_col_apply {a : ℕ} (x : (⟨1, ![a]⟩ : Shape).Idx → α)
    (h : (⟨1, ![a]⟩ : Shape).BroadcastsInDim ⟨2, ![a, 1]⟩ (![0] : Fin 1 → Fin 2)) (k : Fin a) (u : Fin 1) :
    broadcastInDim ⟨2, ![a, 1]⟩ ![0] h x (ix2 k u) = x (ix1 k) := by
  refine broadcastInDim_apply _ h x (ix2 k u) (ix1 k) fun ax => ?_
  match ax with
  | ⟨0, _⟩ =>
    show k.val = if a = 1 then 0 else k.val
    split
    · have := k.isLt; omega
    · rfl

/-- A one-column matrix [a, 1] repeated across b columns: entry (k, q) is the column's entry k. -/
theorem col_mat_apply {a b : ℕ} (x : (⟨2, ![a, 1]⟩ : Shape).Idx → α)
    (h : (⟨2, ![a, 1]⟩ : Shape).BroadcastsInDim ⟨2, ![a, b]⟩ (![0, 1] : Fin 2 → Fin 2)) (k : Fin a) (q : Fin b) :
    broadcastInDim ⟨2, ![a, b]⟩ ![0, 1] h x (ix2 k q) = x (ix2 k (0 : Fin 1)) := by
  refine broadcastInDim_apply _ h x (ix2 k q) (ix2 k (0 : Fin 1)) fun ax => ?_
  match ax with
  | ⟨0, _⟩ =>
    show k.val = if a = 1 then 0 else k.val
    split
    · have := k.isLt; omega
    · rfl
  | ⟨1, _⟩ => rfl

end Cert.BcastInDim
-- ==== Proof.RefLayer.lean ====
/-
  The reference's layer, and that it is the kernel's.

  The reference forms x·ws and nei·wn as two products and adds the two biases one at a time (`layerSep`); the kernel
  forms one product of [x | nei] with ws stacked on wn and adds bs + bn (`dense`). Entry by entry they agree on all
  extended reals: a sum over the doubled axis is the sum of its halves, and the rest is regrouping a sum.
-/
import proofs.«116379_j75033078661165_1_alg».proof.Proof.Gen.ReferenceIdeal.Read
import proofs.«116379_j75033078661165_1_alg».proof.Proof.SageNet
import proofs.«116379_j75033078661165_1_alg».proof.Proof.LibSageLayer
import proofs.«116379_j75033078661165_1_alg».proof.Proof.LibBcastInDim

noncomputable section

namespace Cert.ReferenceIdeal.Layer

open Cert.ReferenceIdeal Cert.ReferenceIdeal.Gen Cert.ReferenceIdeal.Read Cert.SageLayer
open Idealize.ShloMosaic Idealize.ShloMosaic.ValueIdx

/-- A layer of feature width 128 in the separate spelling: x·ws, plus bs on every row, plus nei·wn, plus bn on every row,
    and the maximum with zero. -/
def layerSep128 (x nei : FVec Ideal S50000x128 .f32) (ws : FVec Ideal S128x256 .f32) (bs : FVec Ideal S256 .f32)
    (wn : FVec Ideal S128x256 .f32) (bn : FVec Ideal S256 .f32) : FVec Ideal S50000x256 .f32 :=
  maximumf (F := Ideal)
    (addf (F := Ideal)
      (addf (F := Ideal)
        (addf (F := Ideal) (Host.dotGeneral (F := Ideal) dot_S50000x128_S128x256_S50000x256_1_0_0_1_n_n none x ws)
          (broadcastInDim S50000x256 ![0, 1] bcast_S1x256_S50000x256_0_1 (broadcastInDim S1x256 ![1] bcast_S256_S1x256_1 bs)))
        (Host.dotGeneral (F := Ideal) dot_S50000x128_S128x256_S50000x256_1_0_0_1_n_n none nei wn))
      (broadcastInDim S50000x256 ![0, 1] bcast_S1x256_S50000x256_0_1 (broadcastInDim S1x256 ![1] bcast_S256_S1x256_1 bn)))
    (broadcastInDim S50000x256 ![] bcast_S_S50000x256 (constant (F := Ideal) S_ .f32 0x00000000#32))

/-- A layer of feature width 256 in the separate spelling: x·ws, plus bs on every row, plus nei·wn, plus bn on every row,
    and the maximum with zero. -/
def layerSep256 (x nei : FVec Ideal S50000x256 .f32) (ws : FVec Ideal S256x256 .f32) (bs : FVec Ideal S256 .f32)
    (wn : FVec Ideal S256x256 .f32) (bn : FVec Ideal S256 .f32) : FVec Ideal S50000x256 .f32 :=
  maximumf (F := Ideal)
    (addf (F := Ideal)
      (addf (F := Ideal)
        (addf (F := Ideal) (Host.dotGeneral (F := Ideal) dot_S50000x256_S256x256_S50000x256_1_0_0_1_n_n none x ws)
          (broadcastInDim S50000x256 ![0, 1] bcast_S1x256_S50000x256_0_1 (broadcastInDim S1x256 ![1] bcast_S256_S1x256_1 bs)))
        (Host.dotGeneral (F := Ideal) dot_S50000x256_S256x256_S50000x256_1_0_0_1_n_n none nei wn))
      (broadcastInDim S50000x256 ![0, 1] bcast_S1x256_S50000x256_0_1 (broadcastInDim S1x256 ![1] bcast_S256_S1x256_1 bn)))
    (broadcastInDim S50000x256 ![] bcast_S_S50000x256 (constant (F := Ideal) S_ .f32 0x00000000#32))

/-- The separate spelling is the concatenated one on ws stacked over wn and the bias bs + bn: entry by entry, the two
    products are the two halves of the product over the doubled axis, and the biases regroup. -/
theorem layerSep128_eq (x nei : FVec Ideal S50000x128 .f32) (ws : FVec Ideal S128x256 .f32) (bs : FVec Ideal S256 .f32)
    (wn : FVec Ideal S128x256 .f32) (bn : FVec Ideal S256 .f32) :
    layerSep128 x nei ws bs wn bn
      = dense (A := 50000) (K := 128) (K2 := 256) (M := 256) x nei (Cert.Sage.wcat128 ws wn) (addf (F := Ideal) bs bn) := by
  funext i
  obtain ⟨p, q, rfl⟩ : ∃ (p : Fin 50000) (q : Fin 256), i = ix2 p q := ⟨i 0, i 1, eq_ix2 i⟩
  unfold layerSep128
  rw [maximumf_apply, addf_apply, addf_apply, addf_apply,
    dotGeneral_rows_cols dot_S50000x128_S128x256_S50000x256_1_0_0_1_n_n rfl rfl lhs_main_v26_0 lhs_main_v26_1 rhs_main_v26_0 rhs_main_v26_1 none x ws p q,
    dotGeneral_rows_cols dot_S50000x128_S128x256_S50000x256_1_0_0_1_n_n rfl rfl lhs_main_v26_0 lhs_main_v26_1 rhs_main_v26_0 rhs_main_v26_1 none nei wn p q,
    Cert.BcastInDim.row_mat_apply (broadcastInDim S1x256 ![1] bcast_S256_S1x256_1 bs) bcast_S1x256_S50000x256_0_1 p q,
    Cert.BcastInDim.vec_row_apply bs bcast_S256_S1x256_1 0 q,
    Cert.BcastInDim.row_mat_apply (broadcastInDim S1x256 ![1] bcast_S256_S1x256_1 bn) bcast_S1x256_S50000x256_0_1 p q,
    Cert.BcastInDim.vec_row_apply bn bcast_S256_S1x256_1 0 q,
    Cert.BcastInDim.scalar_apply (constant (F := Ideal) S_ .f32 0x00000000#32) bcast_S_S50000x256 (ix2 p q),
    constant_apply, Ideal.ofBits_zero_f32]
  show _ = denseEntry (A := 50000) (K := 128) (K2 := 256) (M := 256) x nei (Cert.Sage.wcat128 ws wn) (addf (F := Ideal) bs bn) p q
  unfold denseEntry
  rw [addf_apply]
  exact (entry_eq (K := 128) (K2 := 256) rfl (catRow x nei p) (fun k => Cert.Sage.wcat128 ws wn (ix2 k q))
    (fun k => x (ix2 p k)) (fun k => nei (ix2 p k)) (fun k => ws (ix2 k q)) (fun k => wn (ix2 k q))
    (fun k => catRow_left x nei p k _) (fun k => catRow_right x nei p k _)
    (fun k => cat_rows_left (K := 128) (K2 := 256) (M := 256) ws wn Cert.KernelIdeal.Gen.concatenates_S128x256_S128x256_S256x256_d0 k q _)
    (fun k => cat_rows_right (K := 128) (K2 := 256) (M := 256) ws wn Cert.KernelIdeal.Gen.concatenates_S128x256_S128x256_S256x256_d0 k q _)
    (bs (ix1 q)) (bn (ix1 q))).symm

/-- The separate spelling is the concatenated one on ws stacked over wn and the bias bs + bn: entry by entry, the two
    products are the two halves of the product over the doubled axis, and the biases regroup. -/
theorem layerSep256_eq (x nei : FVec Ideal S50000x256 .f32) (ws : FVec Ideal S256x256 .f32) (bs : FVec Ideal S256 .f32)
    (wn : FVec Ideal S256x256 .f32) (bn : FVec Ideal S256 .f32) :
    layerSep256 x nei ws bs wn bn
      = dense (A := 50000) (K := 256) (K2 := 512) (M := 256) x nei (Cert.Sage.wcat256 ws wn) (addf (F := Ideal) bs bn) := by
  funext i
  obtain ⟨p, q, rfl⟩ : ∃ (p : Fin 50000) (q : Fin 256), i = ix2 p q := ⟨i 0, i 1, eq_ix2 i⟩
  unfold layerSep256
  rw [maximumf_apply, addf_apply, addf_apply, addf_apply,
    dotGeneral_rows_cols dot_S50000x256_S256x256_S50000x256_1_0_0_1_n_n rfl rfl lhs_main_v54_0 lhs_main_v54_1 rhs_main_v54_0 rhs_main_v54_1 none x ws p q,
    dotGeneral_rows_cols dot_S50000x256_S256x256_S50000x256_1_0_0_1_n_n rfl rfl lhs_main_v54_0 lhs_main_v54_1 rhs_main_v54_0 rhs_main_v54_1 none nei wn p q,
    Cert.BcastInDim.row_mat_apply (broadcastInDim S1x256 ![1] bcast_S256_S1x256_1 bs) bcast_S1x256_S50000x256_0_1 p q,
    Cert.BcastInDim.vec_row_apply bs bcast_S256_S1x256_1 0 q,
    Cert.BcastInDim.row_mat_apply (broadcastInDim S1x256 ![1] bcast_S256_S1x256_1 bn) bcast_S1x256_S50000x256_0_1 p q,
    Cert.BcastInDim.vec_row_apply bn bcast_S256_S1x256_1 0 q,
    Cert.BcastInDim.scalar_apply (constant (F := Ideal) S_ .f32 0x00000000#32) bcast_S_S50000x256 (ix2 p q),
    constant_apply, Ideal.ofBits_zero_f32]
  show _ = denseEntry (A := 50000) (K := 256) (K2 := 512) (M := 256) x nei (Cert.Sage.wcat256 ws wn) (addf (F := Ideal) bs bn) p q
  unfold denseEntry
  rw [addf_apply]
  exact (entry_eq (K := 256) (K2 := 512) rfl (catRow x nei p) (fun k => Cert.Sage.wcat256 ws wn (ix2 k q))
    (fun k => x (ix2 p k)) (fun k => nei (ix2 p k)) (fun k => ws (ix2 k q)) (fun k => wn (ix2 k q))
    (fun k => catRow_left x nei p k _) (fun k => catRow_right x nei p k _)
    (fun k => cat_rows_left (K := 256) (K2 := 512) (M := 256) ws wn Cert.KernelIdeal.Gen.concatenates_S256x256_S256x256_S512x256_d0 k q _)
    (fun k => cat_rows_right (K := 256) (K2 := 512) (M := 256) ws wn Cert.KernelIdeal.Gen.concatenates_S256x256_S256x256_S512x256_d0 k q _)
    (bs (ix1 q)) (bn (ix1 q))).symm

end Cert.ReferenceIdeal.Layer

end
-- ==== Proof.RefValue.lean ====
/-
  The reference's result, named.

  The reference's run ends with its result buffer at one long term of the arguments. That term is the network in the
  separate spelling: per stream, a first layer on the input features and a second layer on the first layer's output,
  each with the mean of the neighbours' features along the stream's edges; then the mix of the two streams.
  Layer by layer the separate spelling is the concatenated one, so the whole network is too.
-/
import proofs.«116379_j75033078661165_1_alg».proof.Proof.RefLayer

set_option maxRecDepth 16384

noncomputable section

namespace Cert.ReferenceIdeal.RefValue

open Cert.ReferenceIdeal Cert.ReferenceIdeal.Gen Cert.ReferenceIdeal.Value Cert.ReferenceIdeal.Layer
open Idealize.ShloMosaic Idealize.ShloMosaic.TcCoe Idealize.SL.Sem

/-- One stream in the separate spelling: two layers along the edge list `e`. -/
def streamSep (x : FVec Ideal S50000x128 .f32) (e : (⟨S2x800000, .i32⟩ : BufTy).Contents (Elt Ideal))
    (ws0 : FVec Ideal S128x256 .f32) (bs0 : FVec Ideal S256 .f32) (wn0 : FVec Ideal S128x256 .f32) (bn0 : FVec Ideal S256 .f32)
    (ws1 : FVec Ideal S256x256 .f32) (bs1 : FVec Ideal S256 .f32) (wn1 : FVec Ideal S256x256 .f32) (bn1 : FVec Ideal S256 .f32) :
    FVec Ideal S50000x256 .f32 :=
  layerSep256 (layerSep128 x (Cert.Sage.nei128 x (Cert.Sage.eRow e) (Cert.Sage.eCol e)) ws0 bs0 wn0 bn0)
    (Cert.Sage.nei256 (layerSep128 x (Cert.Sage.nei128 x (Cert.Sage.eRow e) (Cert.Sage.eCol e)) ws0 bs0 wn0 bn0)
      (Cert.Sage.eRow e) (Cert.Sage.eCol e)) ws1 bs1 wn1 bn1

/-- The separate spelling of a stream is the concatenated one. -/
theorem streamSep_eq (x : FVec Ideal S50000x128 .f32) (e : (⟨S2x800000, .i32⟩ : BufTy).Contents (Elt Ideal))
    (ws0 : FVec Ideal S128x256 .f32) (bs0 : FVec Ideal S256 .f32) (wn0 : FVec Ideal S128x256 .f32) (bn0 : FVec Ideal S256 .f32)
    (ws1 : FVec Ideal S256x256 .f32) (bs1 : FVec Ideal S256 .f32) (wn1 : FVec Ideal S256x256 .f32) (bn1 : FVec Ideal S256 .f32) :
    streamSep x e ws0 bs0 wn0 bn0 ws1 bs1 wn1 bn1 = Cert.Sage.streamCat x e ws0 bs0 wn0 bn0 ws1 bs1 wn1 bn1 := by
  unfold streamSep Cert.Sage.streamCat Cert.Sage.layerCat256 Cert.Sage.layerCat128
  rw [layerSep128_eq, layerSep256_eq]

/-- The reference's result term is the mix of its two streams in the separate spelling. -/
theorem res_eq (m : (ℓ : Loc nD τ sig) → Buf (Elt Ideal) ℓ) (c : Dev nD) :
    res_main_v129 (F := Ideal) m c
      = Cert.Sage.mix (m ((c.tc : Thread nD τ).loc main_arg1))
          (streamSep (m ((c.tc : Thread nD τ).loc main_arg0)) (m ((c.tc : Thread nD τ).loc main_arg18)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
          (streamSep (m ((c.tc : Thread nD τ).loc main_arg0)) (m ((c.tc : Thread nD τ).loc main_arg19)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) := by
  unfold res_main_v129
  rfl

end Cert.ReferenceIdeal.RefValue

end
-- ==== Proof.lean ====
/-
  The certificate of a two-stream, two-layer graph network with mean aggregation: the kernel program (four launches
  of one matrix-product kernel among host operations) against a plain host program.

  Per layer the kernel computes max([x | nei] · [ws ; wn] + (bs + bn), 0) — the features and the aggregated neighbour
  features side by side, the two weight matrices stacked, ONE product over the doubled axis, the two biases summed
  first — and the reference computes max(x·ws + bs + nei·wn + bn, 0). On the extended reals these are equal entry by
  entry: the sum over the doubled axis is the sum over its first half plus the sum over its second half, and the
  rest is commutativity and associativity of addition, which need no finiteness. Everything else — the gather of
  neighbour rows, the scatter-add onto destination nodes, the division by the edge count plus a small constant, the
  sigmoid of α and the final mix — is the same sequence of host operations in both programs, so it is carried along
  as one shared function and never opened. The narrowing of the product's operands to bf16 is the identity at the
  ideal instance.

  The kernel's result is read off its run: the launch theorem for a program of several regions leaves every buffer
  at the last of the boundary contents, a fold from the launch memory in which a stretch of host operations applies
  its operations and a region replaces its output array by the layer of its four input arrays (ten row blocks of
  5000 rows tile the 50000 rows). The reference's result is its run's term, which is the same network in the
  separate spelling. No claim needs the inputs to be finite; the ideal pass rewrote nothing, so there is nothing to
  preserve.
-/
import proofs.«116379_j75033078661165_1_alg».proof.Defs
import proofs.«116379_j75033078661165_1_alg».proof.Proof.Gen.Kernel
import proofs.«116379_j75033078661165_1_alg».proof.Proof.Gen.Kernel.Skeleton
import proofs.«116379_j75033078661165_1_alg».proof.Proof.Gen.Kernel.Launch
import proofs.«116379_j75033078661165_1_alg».proof.Proof.Gen.Kernel.Points
import proofs.«116379_j75033078661165_1_alg».proof.Proof.Gen.Kernel.Frame
import proofs.«116379_j75033078661165_1_alg».proof.Proof.Gen.KernelIdeal
import proofs.«116379_j75033078661165_1_alg».proof.Proof.Gen.KernelIdeal.Skeleton
import proofs.«116379_j75033078661165_1_alg».proof.Proof.Gen.KernelIdeal.Launch
import proofs.«116379_j75033078661165_1_alg».proof.Proof.Gen.KernelIdeal.Points
import proofs.«116379_j75033078661165_1_alg».proof.Proof.Gen.KernelIdeal.Frame
import proofs.«116379_j75033078661165_1_alg».proof.Proof.Gen.ReferenceIdeal
import proofs.«116379_j75033078661165_1_alg».proof.Proof.Gen.Pre_finite_inputs
import proofs.«116379_j75033078661165_1_alg».proof.Proof.Gen.ReferenceIdeal.Run
import proofs.«116379_j75033078661165_1_alg».proof.Proof.Gen.ReferenceIdeal.Read
import proofs.«116379_j75033078661165_1_alg».proof.Proof.KernelRun
import proofs.«116379_j75033078661165_1_alg».proof.Proof.KernelFold4
import proofs.«116379_j75033078661165_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program terminates, faults nowhere and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass recorded no rewrite. -/
theorem preserves : Cert.preserves_Kernel_KernelIdeal := trivial

/-- Both programs end with the result buffer at the mix of the two streams, each stream two layers in the
    concatenated spelling, of the argument arrays: the kernel by its boundary contents, the reference by its run's
    term and the equality of the two spellings. -/
theorem algebraic : Cert.algebraic_KernelIdeal_ReferenceIdeal := by
  intro m ρ m' ρ' _ hagree
  refine ⟨fun c => Cert.Sage.mix (m ((c.tc : Thread Cert.KernelIdeal.nD Cert.KernelIdeal.τ).loc Cert.KernelIdeal.main_arg1))
      (Cert.Sage.streamCat (m ((c.tc : Thread Cert.KernelIdeal.nD Cert.KernelIdeal.τ).loc Cert.KernelIdeal.main_arg0)) (m ((c.tc : Thread Cert.KernelIdeal.nD Cert.KernelIdeal.τ).loc Cert.KernelIdeal.main_arg18)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
      (Cert.Sage.streamCat (m ((c.tc : Thread Cert.KernelIdeal.nD Cert.KernelIdeal.τ).loc Cert.KernelIdeal.main_arg0)) (m ((c.tc : Thread Cert.KernelIdeal.nD Cert.KernelIdeal.τ).loc Cert.KernelIdeal.main_arg19)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))), ?_, ?_⟩
  · exact (θ_run Cert.KernelIdeal.defs _ _).mono
      (fun r h c => ⟨(h c).1.trans (Cert.KernelIdeal.Fold.W9_v101 m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19⟩ := hagree c
    rw [Cert.ReferenceIdeal.RefValue.res_eq m' c, Cert.ReferenceIdeal.RefValue.streamSep_eq, Cert.ReferenceIdeal.RefValue.streamSep_eq,
      h0, h1, h2, h3, h4, h5, h6, h7, h8, h9, h10, h11, h12, h13, h14, h15, h16, h17, h18, h19]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
